-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x2 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x2 .f32) (main_arg9 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S4000x256 : Shape := ⟨2, ![4000, 256]⟩
abbrev S4000x128 : Shape := ⟨2, ![4000, 128]⟩
abbrev S1600000x128 : Shape := ⟨2, ![1600000, 128]⟩
abbrev S100000x1 : Shape := ⟨2, ![100000, 1]⟩
abbrev S1x128 : Shape := ⟨2, ![1, 128]⟩
abbrev S1x2 : Shape := ⟨2, ![1, 2]⟩
abbrev S100000x2 : Shape := ⟨2, ![100000, 2]⟩
abbrev S4000x2 : Shape := ⟨2, ![4000, 2]⟩
abbrev S4000 : Shape := ⟨1, ![4000]⟩
abbrev S4000x1 : Shape := ⟨2, ![4000, 1]⟩

abbrev nBuf : Space → Nat
  | .hbm => 117
  | .vmem => 36
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S1600000x1, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x1, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x128, .f32⟩
  | .hbm, ⟨102, _⟩ => ⟨S1600000x1, .f32⟩
  | .hbm, ⟨103, _⟩ => ⟨S1600000x128, .f32⟩
  | .hbm, ⟨104, _⟩ => ⟨S1600000x128, .f32⟩
  | .hbm, ⟨105, _⟩ => ⟨S_, .f32⟩
  | .hbm, ⟨106, _⟩ => ⟨S100000x128, .f32⟩
  | .hbm, ⟨107, _⟩ => ⟨S1600000x1, .i32⟩
  | .hbm, ⟨108, _⟩ => ⟨S100000x128, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S1x2, .f32⟩
  | .hbm, ⟨116, _⟩ => ⟨S100000x2, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x2, .f32⟩
  | .local _ .vmem, ⟨33, _⟩ => ⟨S1x2, .f32⟩
  | .local _ .vmem, ⟨34, _⟩ => ⟨S4000x2, .f32⟩
  | .local _ .vmem, ⟨35, _⟩ => ⟨S4000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_12 : Ref sig .tc := ⟨.hbm, 93, rfl⟩
abbrev main_v69 : Ref sig .tc := ⟨.hbm, 94, rfl⟩
abbrev main_v70 : Ref sig .tc := ⟨.hbm, 95, rfl⟩
abbrev main_c_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  reduces_S4000x2_S4000 : S4000x2.Reduces [1] S4000
  shapeCasts_S4000_S4000x1 : S4000.ShapeCasts S4000x1
  broadcasts_S4000x1_S4000x2 : S4000x1.Broadcasts S4000x2
  inb_S4000x2_S4000x2_0_0 : ∀ a, (![0, 0] : Fin 2 → Nat) a + S4000x2.size a ≤ S4000x2.size a
  h_S4000x2 : 0 < S4000x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .f32 = 32 ∨ (Rect.block (s := S100000x128) S4000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x2.size a ≤ S128x2.size a
  hwx6_1 : ∀ i : grid6.Coords, EltTy.bits .f32 = 32 ∨ (Rect.block (s := S128x2) S128x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x2.size a ≤ S100000x2.size a
  hwx6_3 : ∀ i : grid6.Coords, EltTy.bits .f32 = 32 ∨ (Rect.block (s := S100000x2) S4000x2.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v85) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S4000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v87) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v89) S4000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x2 : Shape := ⟨2, ![100000, 2]⟩
abbrev S1x2 : Shape := ⟨2, ![1, 2]⟩

abbrev nBuf : Space → Nat
  | .hbm => 210
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x2, .f32⟩
  | 9 => ⟨S2, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S_, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S100000, .f32⟩
  | 83 => ⟨S100000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x1, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S_, .f32⟩
  | 120 => ⟨S100000, .f32⟩
  | 121 => ⟨S100000, .f32⟩
  | 122 => ⟨S100000x1, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x256, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S_, .f32⟩
  | 6 => ⟨S1600000, .f32⟩
  | 7 => ⟨S_, .f32⟩
  | 8 => ⟨S100000, .f32⟩
  | 9 => ⟨S1600000x1, .i32⟩
  | 10 => ⟨S100000, .f32⟩
  | 11 => ⟨S_, .f32⟩
  | 12 => ⟨S100000, .f32⟩
  | 13 => ⟨S100000, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S1600000x1, .f32⟩
  | 44 => ⟨S1600000x128, .f32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x2, .f32⟩
  | 64 => ⟨S1x2, .f32⟩
  | 65 => ⟨S100000x2, .f32⟩
  | 66 => ⟨S100000x2, .f32⟩
  | 67 => ⟨S_, .f32⟩
  | 68 => ⟨S100000, .f32⟩
  | 69 => ⟨S_, .f32⟩
  | 70 => ⟨S100000, .f32⟩
  | 71 => ⟨S100000, .f32⟩
  | 72 => ⟨S100000x1, .f32⟩
  | 73 => ⟨S100000x2, .f32⟩
  | 74 => ⟨S100000x2, .f32⟩
  | 75 => ⟨S100000x2, .f32⟩
  | 76 => ⟨S_, .f32⟩
  | 77 => ⟨S100000, .f32⟩
  | 78 => ⟨S100000x1, .f32⟩
  | 79 => ⟨S100000x1, .f32⟩
  | 80 => ⟨S100000x2, .f32⟩
  | 81 => ⟨S100000x2, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_19 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call1_cst : Ref sig .tc := ⟨.hbm, 129, rfl⟩
abbrev main_call1_v0 : Ref sig .tc := ⟨.hbm, 130, rfl⟩
abbrev main_v95 : Ref sig .tc := ⟨.hbm, 131, rfl⟩
abbrev main_v96 : Ref sig .tc := ⟨.hbm, 132, rfl⟩
abbrev main_cst_20 : Ref sig .tc := ⟨.hbm, 133, rfl⟩
abbrev main_v97 : Ref sig .tc := ⟨.hbm, 134, rfl⟩
abbrev main_cst_21 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_23 : Ref sig .tc := ⟨.hbm, 143, rfl⟩
abbrev main_v104 : Ref sig .tc := ⟨.hbm, 144, rfl⟩
abbrev main_v105 : Ref sig .tc := ⟨.hbm, 145, rfl⟩
abbrev main_c_24 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_c_25 : Ref sig .tc := ⟨.hbm, 152, rfl⟩
abbrev main_v111 : Ref sig .tc := ⟨.hbm, 153, rfl⟩
abbrev main_v112 : Ref sig .tc := ⟨.hbm, 154, rfl⟩
abbrev main_c_26 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_27 : Ref sig .tc := ⟨.hbm, 162, rfl⟩
abbrev main_v119 : Ref sig .tc := ⟨.hbm, 163, rfl⟩
abbrev main_v120 : Ref sig .tc := ⟨.hbm, 164, rfl⟩
abbrev main_c_28 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_29 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_30 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_call2_cst : Ref sig .tc := ⟨.hbm, 188, rfl⟩
abbrev main_call2_v0 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_call3_cst : Ref sig .tc := ⟨.hbm, 195, rfl⟩
abbrev main_call3_v0 : Ref sig .tc := ⟨.hbm, 196, rfl⟩
abbrev main_call3_cst_0 : Ref sig .tc := ⟨.hbm, 197, rfl⟩
abbrev main_call3_v1 : Ref sig .tc := ⟨.hbm, 198, rfl⟩
abbrev main_call3_v2 : Ref sig .tc := ⟨.hbm, 199, rfl⟩
abbrev main_call3_v3 : Ref sig .tc := ⟨.hbm, 200, rfl⟩
abbrev main_call3_v4 : Ref sig .tc := ⟨.hbm, 201, rfl⟩
abbrev main_call3_v5 : Ref sig .tc := ⟨.hbm, 202, rfl⟩
abbrev main_call3_v6 : Ref sig .tc := ⟨.hbm, 203, rfl⟩
abbrev main_call3_cst_1 : Ref sig .tc := ⟨.hbm, 204, rfl⟩
abbrev main_call3_v7 : Ref sig .tc := ⟨.hbm, 205, rfl⟩
abbrev main_call3_v8 : Ref sig .tc := ⟨.hbm, 206, rfl⟩
abbrev main_call3_v9 : Ref sig .tc := ⟨.hbm, 207, rfl⟩
abbrev main_call3_v10 : Ref sig .tc := ⟨.hbm, 208, rfl⟩
abbrev main_v146 : Ref sig .tc := ⟨.hbm, 209, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000x1_S100000x2_0_1 : S100000x1.BroadcastsInDim S100000x2 (![0, 1] : Fin 2 → Fin S100000x2.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The kernel program's run with its result named.

  The program is seven kernel regions among stretches of host operations.  The contents of every buffer at
  each boundary between two segments are a fold from the launch memory: a host stretch applies its
  operations, a region leaves its arrays at what its grid points wrote back.  Every weakly fair execution
  terminates without a fault; in the final state the result array holds the last boundary's contents of the
  result buffer, and every argument array is as launched.
-/
import proofs.«100644_j4544075399710_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result array ends at
    the last segment boundary's contents of the result buffer, and the ten argument arrays end as launched. -/
theorem run : θ_run defs (onTc (τ := τ) (main (F := F))) ⟨m, fun _ => 0, ρ⟩ (fun r => ∀ c : Dev nD,
      r.2.mem ((c.tc : Thread nD τ).loc main_v89) = W12 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v89 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.RunValue

end
-- ==== Proof.Spec.lean ====
/-
  The whole-array operations the two programs share, written once.

  Every function here is a composition of host operations on whole arrays, at the ideal values (floats are
  extended reals, every operation exact).  One graph-convolution layer takes the projected features xw, scales
  the row of each edge's source node by the edge's weight, adds the scaled rows into the rows of the edges'
  destination nodes, adds each node's own row divided by its degree, adds the bias and clamps at zero.  The
  classifier adds its bias to the projected features and takes the logarithm of the softmax of each row: the
  row minus its maximum, minus the logarithm of the sum of the exponentials of that difference.
-/
import proofs.«100644_j4544075399710_1_alg».proof.Proof.Gen.ReferenceIdeal
import Idealize.ShloMosaic.PureOps.Ideal
import Idealize.ShloMosaic.PureOps.Ideal.Laws

noncomputable section

namespace Cert.Spec

open Idealize.ShloMosaic Cert.ReferenceIdeal Cert.ReferenceIdeal.Gen

/-- A row [1, 128] added to every row of a matrix [100000, 128], then clamped at zero from below. -/
def reluAddRow (a : FVec Ideal S100000x128 .f32) (row : FVec Ideal S1x128 .f32) : FVec Ideal S100000x128 .f32 :=
  maximumf (addf a (broadcastInDim S100000x128 ![0, 1] bcast_S1x128_S100000x128_0_1 row))
    (broadcastInDim S100000x128 ![] bcast_S_S100000x128 (constant (F := Ideal) S_ .f32 0x00000000#32))

/-- The logarithm of the softmax of each row of a matrix [100000, 2]: with s the row minus its maximum,
    s minus the logarithm of the sum over the row of exp s. -/
def logSoftmaxRows (z : FVec Ideal S100000x2 .f32) : FVec Ideal S100000x2 .f32 :=
  let s : FVec Ideal S100000x2 .f32 := subf z (broadcastInDim S100000x2 ![0, 1] bcast_S100000x1_S100000x2_0_1
    (broadcastInDim S100000x1 ![0] bcast_S100000_S100000x1_0
      (maximumf (broadcastInDim S100000 ![] bcast_S_S100000 (constant (F := Ideal) S_ .f32 0xFF800000#32))
        (Host.reduce FloatOps.maximumf z (constant (F := Ideal) S_ .f32 0xFF800000#32) reducesTo_S100000x2_S100000_d1 h_S_))))
  subf s (broadcastInDim S100000x2 ![0, 1] bcast_S100000x1_S100000x2_0_1
    (Host.log (broadcastInDim S100000x1 ![0] bcast_S100000_S100000x1_0
      (Host.reduceAdd (Host.exp s) (constant (F := Ideal) S_ .f32 0x00000000#32) reducesTo_S100000x2_S100000_d1 h_S_))))

/-- The classifier: features [100000, 128] times weights [128, 2], plus the bias row [1, 2] on every row,
    then the logarithm of the softmax of each row. -/
def classifyRows (h : FVec Ideal S100000x128 .f32) (w : FVec Ideal S128x2 .f32) (row : FVec Ideal S1x2 .f32) :
    FVec Ideal S100000x2 .f32 :=
  logSoftmaxRows (addf (Host.dotGeneral dot_S100000x128_S128x2_S100000x2_1_0_0_1_n_n none h w)
    (broadcastInDim S100000x2 ![0, 1] bcast_S1x2_S100000x2_0_1 row))

/-- An integer array's contents. -/
abbrev IVec (s : Shape) := (⟨s, .i32⟩ : BufTy).Contents (Elt Ideal)

/-- Row 0 of the edge list [2, E]: the edges' source nodes, as a vector [E]. -/
def srcOf (ei : IVec S2x1600000) : IVec S1600000 :=
  shapeCast _ (extractStridedSlice S1x1600000 ![0, 0] ei slices_S2x1600000_S1x1600000_0_0) shapeCasts_S1x1600000_S1600000

/-- Row 1 of the edge list: the edges' destination nodes. -/
def dstOf (ei : IVec S2x1600000) : IVec S1600000 :=
  shapeCast _ (extractStridedSlice S1x1600000 ![1, 0] ei slices_S2x1600000_S1x1600000_1_0) shapeCasts_S1x1600000_S1600000

/-- A vector of node numbers as the index column [E, 1] of a gather: a negative number is first shifted by
    the node count. -/
def wrapCol (v : IVec S1600000) : IVec S1600000x1 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- Each node's degree: one for every edge that ends in it, plus one for its own loop. -/
def degOf (dst : IVec S1600000) : FVec Ideal S100000 .f32 :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- Each edge's weight: the product of the inverse square roots of the degrees of its two ends. -/
def normOf (src dst : IVec S1600000) (deg : FVec Ideal S100000 .f32) : FVec Ideal S1600000 .f32 :=
  mulf (Host.gather gather_S100000_S1600000x1_S1600000_n_0_n_n_0_1_1 (Host.rsqrt deg) (wrapCol src))
    (Host.gather gather_S100000_S1600000x1_S1600000_n_0_n_n_0_1_1 (Host.rsqrt deg) (wrapCol dst))

/-- Each node's own weight: one over its degree. -/
def selfOf (deg : FVec Ideal S100000 .f32) : FVec Ideal S100000 .f32 :=
  Host.divf (broadcastInDim S100000 ![] bcast_S_S100000 (constant (F := Ideal) S_ .f32 0x3F800000#32)) deg

/-- The aggregation of one layer: every edge carries its source node's row of xw, scaled by the edge's weight,
    into its destination node's row (all such rows summed); to that is added each node's own row scaled by its
    own weight. -/
def aggOf (src dst : IVec S1600000) (nrm : FVec Ideal S1600000 .f32) (slf : FVec Ideal S100000 .f32)
    (xw : FVec Ideal S100000x128 .f32) : FVec Ideal S100000x128 .f32 :=
  addf (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (mulf (Host.gather gather_S100000x128_S1600000x1_S1600000x128_1_0_n_n_0_1_1128 xw (wrapCol src))
        (broadcastInDim S1600000x128 ![0, 1] bcast_S1600000x1_S1600000x128_0_1
          (broadcastInDim S1600000x1 ![0] bcast_S1600000_S1600000x1_0 nrm))))
    (mulf xw (broadcastInDim S100000x128 ![0, 1] bcast_S100000x1_S100000x128_0_1
      (broadcastInDim S100000x1 ![0] bcast_S100000_S100000x1_0 slf)))

/-- The whole network as one function of the ten arguments: three layers (project, aggregate, add the bias,
    clamp at zero), then the classifier. The bias vectors enter as rows [1, n]. -/
def network (x : FVec Ideal S100000x256 .f32) (ei : IVec S2x1600000) (w1 : FVec Ideal S256x128 .f32) (r1 : FVec Ideal S1x128 .f32)
    (w2 : FVec Ideal S128x128 .f32) (r2 : FVec Ideal S1x128 .f32) (w3 : FVec Ideal S128x128 .f32) (r3 : FVec Ideal S1x128 .f32)
    (wc : FVec Ideal S128x2 .f32) (rc : FVec Ideal S1x2 .f32) : FVec Ideal S100000x2 .f32 :=
  classifyRows
    (reluAddRow (aggOf (srcOf ei) (dstOf ei) (normOf (srcOf ei) (dstOf ei) (degOf (dstOf ei))) (selfOf (degOf (dstOf ei)))
      (Host.dotGeneral dot_S100000x128_S128x128_S100000x128_1_0_0_1_n_n none
        (reluAddRow (aggOf (srcOf ei) (dstOf ei) (normOf (srcOf ei) (dstOf ei) (degOf (dstOf ei))) (selfOf (degOf (dstOf ei)))
          (Host.dotGeneral dot_S100000x128_S128x128_S100000x128_1_0_0_1_n_n none
            (reluAddRow (aggOf (srcOf ei) (dstOf ei) (normOf (srcOf ei) (dstOf ei) (degOf (dstOf ei))) (selfOf (degOf (dstOf ei)))
              (Host.dotGeneral dot_S100000x256_S256x128_S100000x128_1_0_0_1_n_n none x w1)) r1) w2)) r2) w3)) r3)
    wc rc

end Cert.Spec

end
-- ==== Proof.HostSide.lean ====
/-
  What the kernel program's buffers hold at the boundaries between its segments, on the host side.

  The first stretch of host operations computes, from the edge list alone, the edges' source and destination
  nodes, each edge's weight and each node's own weight.  No later segment writes those four buffers, nor any
  argument array, so at every later boundary they still hold what the first stretch (or the launch) left.  Each
  later stretch computes one layer's aggregation from the projected features the region before it wrote, and
  reshapes the layer's bias vector into a row.
-/
import proofs.«100644_j4544075399710_1_alg».proof.Proof.Gen.KernelIdeal.Frame
import proofs.«100644_j4544075399710_1_alg».proof.Proof.Spec
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

/-- Closes "no operation of this stretch writes the buffer": the stretch's operations are listed, each one's
    written buffer is a single named buffer, and the names differ. -/
macro "not_written " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## Buffers no segment writes keep their contents -/

/-- Through the first host stretch and the first region. -/
theorem keep2 (b : Ref sig .tc) (h0 : ∀ w, Pipeline.arrRef spec0 w ≠ b)
    (hw : ∀ op ∈ (hostOps0 : List (HloOp τ sig (Elt Ideal))), Proc.devRef .tc b ∉ op.writes) :
    W2 m ρ c (Proc.devRef .tc b) = m ((c : Thread nD τ).loc b) :=
  (W2_of_ne m ρ c b h0).trans ((StableHlo.after_of_forall_not_mem _ _ hw).trans rfl)

/-- Through the second host stretch and regions 1 and 2. -/
theorem hop5 (b : Ref sig .tc) (h2 : ∀ w, Pipeline.arrRef spec2 w ≠ b) (h1 : ∀ w, Pipeline.arrRef spec1 w ≠ b)
    (hw : ∀ op ∈ (hostOps1 : List (HloOp τ sig (Elt Ideal))), Proc.devRef .tc b ∉ op.writes) :
    W5 m ρ c (Proc.devRef .tc b) = W2 m ρ c (Proc.devRef .tc b) :=
  (W5_of_ne m ρ c b h2).trans ((W4_of_ne m ρ c b h1).trans (StableHlo.after_of_forall_not_mem _ _ hw))

/-- Through the third host stretch and regions 3 and 4. -/
theorem hop8 (b : Ref sig .tc) (h4 : ∀ w, Pipeline.arrRef spec4 w ≠ b) (h3 : ∀ w, Pipeline.arrRef spec3 w ≠ b)
    (hw : ∀ op ∈ (hostOps3 : List (HloOp τ sig (Elt Ideal))), Proc.devRef .tc b ∉ op.writes) :
    W8 m ρ c (Proc.devRef .tc b) = W5 m ρ c (Proc.devRef .tc b) :=
  (W8_of_ne m ρ c b h4).trans ((W7_of_ne m ρ c b h3).trans (StableHlo.after_of_forall_not_mem _ _ hw))

/-! ## The argument arrays where the segments read them -/

theorem W1_arg0 : W1 m ρ c (Proc.devRef .tc main_arg0) = m ((c : Thread nD τ).loc main_arg0) :=
  (StableHlo.after_of_forall_not_mem (b := Proc.devRef .tc main_arg0) _ _ (by not_written hostOps0)).trans rfl
theorem W1_arg2 : W1 m ρ c (Proc.devRef .tc main_arg2) = m ((c : Thread nD τ).loc main_arg2) :=
  (StableHlo.after_of_forall_not_mem (b := Proc.devRef .tc main_arg2) _ _ (by not_written hostOps0)).trans rfl
theorem W2_arg3 : W2 m ρ c (Proc.devRef .tc main_arg3) = m ((c : Thread nD τ).loc main_arg3) :=
  keep2 m ρ c main_arg3 (by decide) (by not_written hostOps0)
theorem W2_arg4 : W2 m ρ c (Proc.devRef .tc main_arg4) = m ((c : Thread nD τ).loc main_arg4) :=
  keep2 m ρ c main_arg4 (by decide) (by not_written hostOps0)
theorem W4_arg4 : W4 m ρ c (Proc.devRef .tc main_arg4) = m ((c : Thread nD τ).loc main_arg4) :=
  (W4_of_ne m ρ c main_arg4 (by decide)).trans
    ((StableHlo.after_of_forall_not_mem (b := Proc.devRef .tc main_arg4) _ _ (by not_written hostOps1)).trans (W2_arg4 m ρ c))
theorem W5_arg5 : W5 m ρ c (Proc.devRef .tc main_arg5) = m ((c : Thread nD τ).loc main_arg5) :=
  (hop5 m ρ c main_arg5 (by decide) (by decide) (by not_written hostOps1)).trans
    (keep2 m ρ c main_arg5 (by decide) (by not_written hostOps0))
theorem W5_arg6 : W5 m ρ c (Proc.devRef .tc main_arg6) = m ((c : Thread nD τ).loc main_arg6) :=
  (hop5 m ρ c main_arg6 (by decide) (by decide) (by not_written hostOps1)).trans
    (keep2 m ρ c main_arg6 (by decide) (by not_written hostOps0))
theorem W7_arg6 : W7 m ρ c (Proc.devRef .tc main_arg6) = m ((c : Thread nD τ).loc main_arg6) :=
  (W7_of_ne m ρ c main_arg6 (by decide)).trans
    ((StableHlo.after_of_forall_not_mem (b := Proc.devRef .tc main_arg6) _ _ (by not_written hostOps3)).trans (W5_arg6 m ρ c))
theorem W8_arg7 : W8 m ρ c (Proc.devRef .tc main_arg7) = m ((c : Thread nD τ).loc main_arg7) :=
  (hop8 m ρ c main_arg7 (by decide) (by decide) (by not_written hostOps3)).trans
    ((hop5 m ρ c main_arg7 (by decide) (by decide) (by not_written hostOps1)).trans
      (keep2 m ρ c main_arg7 (by decide) (by not_written hostOps0)))
theorem W8_arg8 : W8 m ρ c (Proc.devRef .tc main_arg8) = m ((c : Thread nD τ).loc main_arg8) :=
  (hop8 m ρ c main_arg8 (by decide) (by decide) (by not_written hostOps3)).trans
    ((hop5 m ρ c main_arg8 (by decide) (by decide) (by not_written hostOps1)).trans
      (keep2 m ρ c main_arg8 (by decide) (by not_written hostOps0)))
theorem W8_arg9 : W8 m ρ c (Proc.devRef .tc main_arg9) = m ((c : Thread nD τ).loc main_arg9) :=
  (hop8 m ρ c main_arg9 (by decide) (by decide) (by not_written hostOps3)).trans
    ((hop5 m ρ c main_arg9 (by decide) (by decide) (by not_written hostOps1)).trans
      (keep2 m ρ c main_arg9 (by decide) (by not_written hostOps0)))
theorem W10_arg9 : W10 m ρ c (Proc.devRef .tc main_arg9) = m ((c : Thread nD τ).loc main_arg9) :=
  (W10_of_ne m ρ c main_arg9 (by decide)).trans
    ((StableHlo.after_of_forall_not_mem (b := Proc.devRef .tc main_arg9) _ _ (by not_written hostOps5)).trans (W8_arg9 m ρ c))
theorem W11_arg8 : W11 m ρ c (Proc.devRef .tc main_arg8) = m ((c : Thread nD τ).loc main_arg8) :=
  (StableHlo.after_of_forall_not_mem (b := Proc.devRef .tc main_arg8) _ _ (by not_written hostOps6)).trans
    ((W10_of_ne m ρ c main_arg8 (by decide)).trans
      ((StableHlo.after_of_forall_not_mem (b := Proc.devRef .tc main_arg8) _ _ (by not_written hostOps5)).trans (W8_arg8 m ρ c)))

/-! ## What the first host stretch computes from the edge list -/

theorem W1_v1 : W1 m ρ c (Proc.devRef .tc main_v1) = Cert.Spec.srcOf (m ((c : Thread nD τ).loc main_arg1)) := by
  show StableHlo.after hostOps0 (W0 m ρ c) (Proc.devRef .tc main_v1) = _
  after_results_simp
  rfl
theorem W1_v3 : W1 m ρ c (Proc.devRef .tc main_v3) = Cert.Spec.dstOf (m ((c : Thread nD τ).loc main_arg1)) := by
  show StableHlo.after hostOps0 (W0 m ρ c) (Proc.devRef .tc main_v3) = _
  after_results_simp
  rfl
theorem W1_v25 : W1 m ρ c (Proc.devRef .tc main_v25)
    = Cert.Spec.normOf (Cert.Spec.srcOf (m ((c : Thread nD τ).loc main_arg1))) (Cert.Spec.dstOf (m ((c : Thread nD τ).loc main_arg1)))
        (Cert.Spec.degOf (Cert.Spec.dstOf (m ((c : Thread nD τ).loc main_arg1)))) := by
  show StableHlo.after hostOps0 (W0 m ρ c) (Proc.devRef .tc main_v25) = _
  after_results_simp
  rfl
theorem W1_v27 : W1 m ρ c (Proc.devRef .tc main_v27)
    = Cert.Spec.selfOf (Cert.Spec.degOf (Cert.Spec.dstOf (m ((c : Thread nD τ).loc main_arg1)))) := by
  show StableHlo.after hostOps0 (W0 m ρ c) (Proc.devRef .tc main_v27) = _
  after_results_simp
  rfl

/-! ## The four buffers computed from the edge list, where the later stretches read them -/

section Graph

theorem W2_v1 : W2 m ρ c (Proc.devRef .tc main_v1) = Cert.Spec.srcOf (m ((c : Thread nD τ).loc main_arg1)) :=
  (W2_of_ne m ρ c main_v1 (by decide)).trans (W1_v1 m ρ c)
theorem W2_v3 : W2 m ρ c (Proc.devRef .tc main_v3) = Cert.Spec.dstOf (m ((c : Thread nD τ).loc main_arg1)) :=
  (W2_of_ne m ρ c main_v3 (by decide)).trans (W1_v3 m ρ c)
theorem W2_v25 : W2 m ρ c (Proc.devRef .tc main_v25)
    = Cert.Spec.normOf (Cert.Spec.srcOf (m ((c : Thread nD τ).loc main_arg1))) (Cert.Spec.dstOf (m ((c : Thread nD τ).loc main_arg1))) (Cert.Spec.degOf (Cert.Spec.dstOf (m ((c : Thread nD τ).loc main_arg1)))) :=
  (W2_of_ne m ρ c main_v25 (by decide)).trans (W1_v25 m ρ c)
theorem W2_v27 : W2 m ρ c (Proc.devRef .tc main_v27) = Cert.Spec.selfOf (Cert.Spec.degOf (Cert.Spec.dstOf (m ((c : Thread nD τ).loc main_arg1)))) :=
  (W2_of_ne m ρ c main_v27 (by decide)).trans (W1_v27 m ρ c)

theorem W5_v1 : W5 m ρ c (Proc.devRef .tc main_v1) = Cert.Spec.srcOf (m ((c : Thread nD τ).loc main_arg1)) :=
  (hop5 m ρ c main_v1 (by decide) (by decide) (by not_written hostOps1)).trans (W2_v1 m ρ c)
theorem W5_v3 : W5 m ρ c (Proc.devRef .tc main_v3) = Cert.Spec.dstOf (m ((c : Thread nD τ).loc main_arg1)) :=
  (hop5 m ρ c main_v3 (by decide) (by decide) (by not_written hostOps1)).trans (W2_v3 m ρ c)
theorem W5_v25 : W5 m ρ c (Proc.devRef .tc main_v25)
    = Cert.Spec.normOf (Cert.Spec.srcOf (m ((c : Thread nD τ).loc main_arg1))) (Cert.Spec.dstOf (m ((c : Thread nD τ).loc main_arg1))) (Cert.Spec.degOf (Cert.Spec.dstOf (m ((c : Thread nD τ).loc main_arg1)))) :=
  (hop5 m ρ c main_v25 (by decide) (by decide) (by not_written hostOps1)).trans (W2_v25 m ρ c)
theorem W5_v27 : W5 m ρ c (Proc.devRef .tc main_v27) = Cert.Spec.selfOf (Cert.Spec.degOf (Cert.Spec.dstOf (m ((c : Thread nD τ).loc main_arg1)))) :=
  (hop5 m ρ c main_v27 (by decide) (by decide) (by not_written hostOps1)).trans (W2_v27 m ρ c)

theorem W8_v1 : W8 m ρ c (Proc.devRef .tc main_v1) = Cert.Spec.srcOf (m ((c : Thread nD τ).loc main_arg1)) :=
  (hop8 m ρ c main_v1 (by decide) (by decide) (by not_written hostOps3)).trans (W5_v1 m ρ c)
theorem W8_v3 : W8 m ρ c (Proc.devRef .tc main_v3) = Cert.Spec.dstOf (m ((c : Thread nD τ).loc main_arg1)) :=
  (hop8 m ρ c main_v3 (by decide) (by decide) (by not_written hostOps3)).trans (W5_v3 m ρ c)
theorem W8_v25 : W8 m ρ c (Proc.devRef .tc main_v25)
    = Cert.Spec.normOf (Cert.Spec.srcOf (m ((c : Thread nD τ).loc main_arg1))) (Cert.Spec.dstOf (m ((c : Thread nD τ).loc main_arg1))) (Cert.Spec.degOf (Cert.Spec.dstOf (m ((c : Thread nD τ).loc main_arg1)))) :=
  (hop8 m ρ c main_v25 (by decide) (by decide) (by not_written hostOps3)).trans (W5_v25 m ρ c)
theorem W8_v27 : W8 m ρ c (Proc.devRef .tc main_v27) = Cert.Spec.selfOf (Cert.Spec.degOf (Cert.Spec.dstOf (m ((c : Thread nD τ).loc main_arg1)))) :=
  (hop8 m ρ c main_v27 (by decide) (by decide) (by not_written hostOps3)).trans (W5_v27 m ρ c)

end Graph

/-! ## What each later stretch computes, from the contents it is entered with -/

theorem W3_v45 : W3 m ρ c (Proc.devRef .tc main_v45)
    = Cert.Spec.aggOf (W2 m ρ c (Proc.devRef .tc main_v1)) (W2 m ρ c (Proc.devRef .tc main_v3)) (W2 m ρ c (Proc.devRef .tc main_v25))
        (W2 m ρ c (Proc.devRef .tc main_v27)) (W2 m ρ c (Proc.devRef .tc main_v28)) := by
  show StableHlo.after hostOps1 (W2 m ρ c) (Proc.devRef .tc main_v45) = _
  after_results_simp
  rfl
theorem W3_v46 : W3 m ρ c (Proc.devRef .tc main_v46)
    = shapeCast S1x128 (W2 m ρ c (Proc.devRef .tc main_arg3)) shapeCasts_S128_S1x128 := by
  show StableHlo.after hostOps1 (W2 m ρ c) (Proc.devRef .tc main_v46) = _
  after_results_simp
  rfl
theorem W6_v65 : W6 m ρ c (Proc.devRef .tc main_v65)
    = Cert.Spec.aggOf (W5 m ρ c (Proc.devRef .tc main_v1)) (W5 m ρ c (Proc.devRef .tc main_v3)) (W5 m ρ c (Proc.devRef .tc main_v25))
        (W5 m ρ c (Proc.devRef .tc main_v27)) (W5 m ρ c (Proc.devRef .tc main_v48)) := by
  show StableHlo.after hostOps3 (W5 m ρ c) (Proc.devRef .tc main_v65) = _
  after_results_simp
  rfl
theorem W6_v66 : W6 m ρ c (Proc.devRef .tc main_v66)
    = shapeCast S1x128 (W5 m ρ c (Proc.devRef .tc main_arg5)) shapeCasts_S128_S1x128 := by
  show StableHlo.after hostOps3 (W5 m ρ c) (Proc.devRef .tc main_v66) = _
  after_results_simp
  rfl
theorem W9_v85 : W9 m ρ c (Proc.devRef .tc main_v85)
    = Cert.Spec.aggOf (W8 m ρ c (Proc.devRef .tc main_v1)) (W8 m ρ c (Proc.devRef .tc main_v3)) (W8 m ρ c (Proc.devRef .tc main_v25))
        (W8 m ρ c (Proc.devRef .tc main_v27)) (W8 m ρ c (Proc.devRef .tc main_v68)) := by
  show StableHlo.after hostOps5 (W8 m ρ c) (Proc.devRef .tc main_v85) = _
  after_results_simp
  rfl
theorem W9_v86 : W9 m ρ c (Proc.devRef .tc main_v86)
    = shapeCast S1x128 (W8 m ρ c (Proc.devRef .tc main_arg7)) shapeCasts_S128_S1x128 := by
  show StableHlo.after hostOps5 (W8 m ρ c) (Proc.devRef .tc main_v86) = _
  after_results_simp
  rfl
theorem W11_v88 : W11 m ρ c (Proc.devRef .tc main_v88)
    = shapeCast S1x2 (W10 m ρ c (Proc.devRef .tc main_arg9)) shapeCasts_S2_S1x2 := by
  show StableHlo.after hostOps6 (W10 m ρ c) (Proc.devRef .tc main_v88) = _
  after_results_simp
  rfl
theorem W11_v87 : W11 m ρ c (Proc.devRef .tc main_v87) = W10 m ρ c (Proc.devRef .tc main_v87) :=
  StableHlo.after_of_forall_not_mem (b := Proc.devRef .tc main_v87) _ _ (by not_written hostOps6)

end Cert.KernelIdeal.HostSide

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«100644_j4544075399710_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.Matmul0.lean ====
/-
  The first matrix product, computed by blocks of rows, is the whole product.

  The region runs over 25 points.  At point t it loads rows 4000·t … 4000·t + 3999 of the left operand
  [100000, 256] and the whole right operand [256, 128], narrows both to bf16 — the identity at the
  ideal values, where every float format is the extended reals —, multiplies them on the matrix unit into the
  zero accumulator, and stores the [4000, 128] result as rows 4000·t … 4000·t + 3999 of the output
  [100000, 128].  Entry (p, q) of that block is the sum over k of lhs (4000·t + p, k) · rhs (k, q), which is
  entry (4000·t + p, q) of the whole product.  Row r of the output lies in the block of point r / 4000, and
  every point writes its block back; so after the region the output array is the host's `dot_general` of the
  two input arrays, whatever the buffers held when the region was entered.
-/
import proofs.«100644_j4544075399710_1_alg».proof.Proof.Gen.KernelIdeal.Frame
import proofs.«100644_j4544075399710_1_alg».proof.Proof.Gen.ReferenceIdeal
import proofs.«100644_j4544075399710_1_alg».proof.Proof.LibRowBlocks
import Idealize.ShloMosaic.Lib.Pipeline.Value

noncomputable section

namespace Cert.KernelIdeal.RegionValue

open Idealize.ShloMosaic Idealize.ShloMosaic.TcCoe Idealize.ShloMosaic.ValueIdx Cert.KernelIdeal Cert.KernelIdeal.Gen

/-- The offsets (0, 0) of a whole-block access are the zero offsets. -/
theorem zero_offsets0 : (![0, 0] : Fin 2 → Nat) = fun _ => 0 := funext fun a => by fin_cases a <;> rfl

/-- The whole product: the host's `dot_general` of a left operand [100000, 256] and a right operand [256, 128],
    contracting the left's columns with the right's rows. -/
abbrev product0 (a : FVec Ideal S100000x256 .f32) (b : FVec Ideal S256x128 .f32) : FVec Ideal S100000x128 .f32 :=
  Host.dotGeneral (F := Ideal) Cert.ReferenceIdeal.dot_S100000x256_S256x128_S100000x128_1_0_0_1_n_n none a b

/-- The body's payload at a block index (p, q): when row p of the left block is row r of the left array and
    the right block is the right array, it is the whole product's entry (r, q) — both are the sum over k of
    lhs (r, k) · rhs (k, q); narrowing to bf16 changes nothing at the ideal values. -/
theorem block_payload0 (x0 : Vec Ideal S4000x256 .f32) (x1 : Vec Ideal S256x128 .f32)
    (a : FVec Ideal S100000x256 .f32) (b : FVec Ideal S256x128 .f32)
    (p : Fin 4000) (q : Fin 128) (r : Fin 100000)
    (hx : ∀ k : Fin 256, (x0 (ix2 p k) : EReal) = a (ix2 r k)) (hw : ∀ k : Fin 256, (x1 (ix2 k q) : EReal) = b (ix2 k q)) :
    k0_pay1 (F := Ideal) x0 x1 (ix2 p q) = product0 a b (ix2 r q) := by
  unfold k0_pay1
  exact Cert.Lib.RowBlocks.matmul_rows_eq_dotGeneral (M := 100000) (K := 256) (N := 128) (B := 4000) none none a b
    (truncf .bf16 x0 bitsLt_bf16_f32) (truncf .bf16 x1 bitsLt_bf16_f32) p r q
    hx hw

/-- The block indices over the grid, decided point by point: at point t the left operand's and the output's
    blocks are row block t (column block 0), and the right operand's block is its one block (0, 0). -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two input arrays as the region finds them.
    An element of a block sits in its array, on each axis, at block index × block size + its coordinate in the
    block: local row p of the left and output blocks is row 4000·t + p, and the right block is the whole array. -/
theorem flushed0_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (product0 (V c main_arg0) (V c main_arg2)) := by
  show (cfg0.win 2).cut (grid0.coords t) ((dat0 (F := Ideal) V c).after 2 t) = _
  rw [after0_2]
  unfold out0_2
  rw [View.canon_unit_zero zero_offsets0]
  simp only [View.ld_unit_zero (S := S4000x256) zero_offsets0, View.ld_unit_zero (S := S256x128) zero_offsets0]
  obtain ⟨e00, e01, e10, e11, e20, e21⟩ := block_indices0 t
  funext j
  obtain ⟨p, q, rfl⟩ : ∃ (p : Fin 4000) (q : Fin 128), j = ix2 p q := ⟨j 0, j 1, eq_ix2 j⟩
  have hp : p.val < 4000 := p.isLt
  have ht : t.val < 25 := by have h : t.val < grid0.N := t.isLt; rw [N_0] at h; exact h
  have hr : t.val * 4000 + p.val < 100000 := by omega
  show k0_pay1 (F := Ideal) (iblk0 V c 0 t) (iblk0 V c 1 t) (ix2 p q)
    = product0 (V c main_arg0) (V c main_arg2) (((cfg0.win 2).blk t).view.emb (ix2 p q))
  have hemb : ((cfg0.win 2).blk t).view.emb (ix2 p q) = ix2 (⟨t.val * 4000 + p.val, hr⟩ : Fin 100000) q := by
    funext a; apply Fin.ext
    match a with
    | ⟨0, _⟩ => show win0_2.index t (0 : Fin 2) * 4000 + 1 * p.val = t.val * 4000 + p.val; omega
    | ⟨1, _⟩ => show win0_2.index t (1 : Fin 2) * 128 + 1 * q.val = q.val; omega
  rw [hemb]
  refine block_payload0 _ _ _ _ p q ⟨_, hr⟩ (fun k => ?_) (fun k => ?_)
  · show V c main_arg0 (((cfg0.win 0).blk t).view.emb (ix2 p k))
      = V c main_arg0 (ix2 (⟨t.val * 4000 + p.val, hr⟩ : Fin 100000) k)
    refine congrArg _ ?_
    funext a; apply Fin.ext
    match a with
    | ⟨0, _⟩ => show win0_0.index t (0 : Fin 2) * 4000 + 1 * p.val = t.val * 4000 + p.val; omega
    | ⟨1, _⟩ => show win0_0.index t (1 : Fin 2) * 256 + 1 * k.val = k.val; omega
  · show V c main_arg2 (((cfg0.win 1).blk t).view.emb (ix2 k q)) = V c main_arg2 (ix2 k q)
    refine congrArg _ ?_
    funext a; apply Fin.ext
    match a with
    | ⟨0, _⟩ => show win0_1.index t (0 : Fin 2) * 256 + 1 * k.val = k.val; omega
    | ⟨1, _⟩ => show win0_1.index t (1 : Fin 2) * 128 + 1 * q.val = q.val; omega

/-- An index of the output array is in point t's block iff, on each axis, its coordinate is in the block's
    range: from block index × block size up to one block size further. -/
theorem mem_block0 (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v28).slice (win0_2.rect t)).set ↔ _
  rw [View.set_slice_whole, Rect.mem_set_unit]
  exact Iff.rfl

/-- Every index of the output array is in the block of a point that writes back: row r is in the block of
    point r / 4000 (there are 100000 = 25 · 4000 rows), the one column block holds all 128 columns, and every
    point writes its block back. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 4000 < grid0.N := by rw [N_0]; omega
  obtain ⟨-, -, -, -, e20, e21⟩ := block_indices0 ⟨(i 0).val / 4000, hlt⟩
  refine ⟨⟨(i 0).val / 4000, hlt⟩, flush0_2 _, ?_⟩
  rw [mem_block0]
  intro a
  match a with
  | ⟨0, _⟩ =>
    show win0_2.index ⟨(i 0).val / 4000, hlt⟩ (0 : Fin 2) * 4000 ≤ (i 0).val
      ∧ (i 0).val < win0_2.index ⟨(i 0).val / 4000, hlt⟩ (0 : Fin 2) * 4000 + 4000
    rw [e20]; show (i 0).val / 4000 * 4000 ≤ (i 0).val ∧ (i 0).val < (i 0).val / 4000 * 4000 + 4000; omega
  | ⟨1, _⟩ =>
    show win0_2.index ⟨(i 0).val / 4000, hlt⟩ (1 : Fin 2) * 128 ≤ (i 1).val
      ∧ (i 1).val < win0_2.index ⟨(i 0).val / 4000, hlt⟩ (1 : Fin 2) * 128 + 128
    rw [e21]; omega

/-- After the region, the output array [100000, 128] is the whole matrix product of the region's two input
    arrays — the host's `dot_general` of the left array [100000, 256] and the right array [256, 128] as the
    region finds them —, for any contents of the buffers at the region's entry: every point writes back its block
    of rows of that product, and the blocks cover the array. -/
theorem matmul0 (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32)
          Cert.ReferenceIdeal.dot_S100000x256_S256x128_S100000x128_1_0_0_1_n_n none (V c main_arg0) (V c main_arg2) :=
  (dat0 (F := Ideal) V c).arrAt_eq_of_cover 2 (product0 (V c main_arg0) (V c main_arg2))
    (fun t _ => flushed0_eq V c t) covered0

end Cert.KernelIdeal.RegionValue

end
-- ==== Proof.Matmul2.lean ====
/-
  The second matrix product, computed by blocks of rows, is the whole product.

  The region runs over 25 points.  At point t it loads rows 4000·t … 4000·t + 3999 of the left operand
  [100000, 128] and the whole right operand [128, 128], reshapes the left block to its own shape (the identity), narrows both to bf16 — the identity at the
  ideal values, where every float format is the extended reals —, multiplies them on the matrix unit into the
  zero accumulator, and stores the [4000, 128] result as rows 4000·t … 4000·t + 3999 of the output
  [100000, 128].  Entry (p, q) of that block is the sum over k of lhs (4000·t + p, k) · rhs (k, q), which is
  entry (4000·t + p, q) of the whole product.  Row r of the output lies in the block of point r / 4000, and
  every point writes its block back; so after the region the output array is the host's `dot_general` of the
  two input arrays, whatever the buffers held when the region was entered.
-/
import proofs.«100644_j4544075399710_1_alg».proof.Proof.Gen.KernelIdeal.Frame
import proofs.«100644_j4544075399710_1_alg».proof.Proof.Gen.ReferenceIdeal
import proofs.«100644_j4544075399710_1_alg».proof.Proof.LibRowBlocks
import Idealize.ShloMosaic.Lib.Pipeline.Value

noncomputable section

namespace Cert.KernelIdeal.RegionValue

open Idealize.ShloMosaic Idealize.ShloMosaic.TcCoe Idealize.ShloMosaic.ValueIdx Cert.KernelIdeal Cert.KernelIdeal.Gen

/-- The offsets (0, 0) of a whole-block access are the zero offsets. -/
theorem zero_offsets2 : (![0, 0] : Fin 2 → Nat) = fun _ => 0 := funext fun a => by fin_cases a <;> rfl

/-- The whole product: the host's `dot_general` of a left operand [100000, 128] and a right operand [128, 128],
    contracting the left's columns with the right's rows. -/
abbrev product2 (a : FVec Ideal S100000x128 .f32) (b : FVec Ideal S128x128 .f32) : FVec Ideal S100000x128 .f32 :=
  Host.dotGeneral (F := Ideal) Cert.ReferenceIdeal.dot_S100000x128_S128x128_S100000x128_1_0_0_1_n_n none a b

/-- The body's payload at a block index (p, q): when row p of the left block is row r of the left array and
    the right block is the right array, it is the whole product's entry (r, q) — both are the sum over k of
    lhs (r, k) · rhs (k, q); narrowing to bf16 changes nothing at the ideal values. -/
theorem block_payload2 (x0 : Vec Ideal S4000x128 .f32) (x1 : Vec Ideal S128x128 .f32)
    (a : FVec Ideal S100000x128 .f32) (b : FVec Ideal S128x128 .f32)
    (p : Fin 4000) (q : Fin 128) (r : Fin 100000)
    (hx : ∀ k : Fin 128, (x0 (ix2 p k) : EReal) = a (ix2 r k)) (hw : ∀ k : Fin 128, (x1 (ix2 k q) : EReal) = b (ix2 k q)) :
    k2_pay1 (F := Ideal) x0 x1 (ix2 p q) = product2 a b (ix2 r q) := by
  unfold k2_pay1
  exact Cert.Lib.RowBlocks.matmul_rows_eq_dotGeneral (M := 100000) (K := 128) (N := 128) (B := 4000) none none a b
    (truncf .bf16 (shapeCast S4000x128 x0 shapeCasts_S4000x128_S4000x128) bitsLt_bf16_f32) (truncf .bf16 x1 bitsLt_bf16_f32) p r q
    (fun k => (congrFun (shapeCast_self x0 shapeCasts_S4000x128_S4000x128) (ix2 p k)).trans (hx k)) hw

/-- The block indices over the grid, decided point by point: at point t the left operand's and the output's
    blocks are row block t (column block 0), and the right operand's block is its one block (0, 0). -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the two input arrays as the region finds them.
    An element of a block sits in its array, on each axis, at block index × block size + its coordinate in the
    block: local row p of the left and output blocks is row 4000·t + p, and the right block is the whole array. -/
theorem flushed2_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (product2 (V c main_v47) (V c main_arg4)) := by
  show (cfg2.win 2).cut (grid2.coords t) ((dat2 (F := Ideal) V c).after 2 t) = _
  rw [after2_2]
  unfold out2_2
  rw [View.canon_unit_zero zero_offsets2]
  simp only [View.ld_unit_zero (S := S4000x128) zero_offsets2, View.ld_unit_zero (S := S128x128) zero_offsets2]
  obtain ⟨e00, e01, e10, e11, e20, e21⟩ := block_indices2 t
  funext j
  obtain ⟨p, q, rfl⟩ : ∃ (p : Fin 4000) (q : Fin 128), j = ix2 p q := ⟨j 0, j 1, eq_ix2 j⟩
  have hp : p.val < 4000 := p.isLt
  have ht : t.val < 25 := by have h : t.val < grid2.N := t.isLt; rw [N_2] at h; exact h
  have hr : t.val * 4000 + p.val < 100000 := by omega
  show k2_pay1 (F := Ideal) (iblk2 V c 0 t) (iblk2 V c 1 t) (ix2 p q)
    = product2 (V c main_v47) (V c main_arg4) (((cfg2.win 2).blk t).view.emb (ix2 p q))
  have hemb : ((cfg2.win 2).blk t).view.emb (ix2 p q) = ix2 (⟨t.val * 4000 + p.val, hr⟩ : Fin 100000) q := by
    funext a; apply Fin.ext
    match a with
    | ⟨0, _⟩ => show win2_2.index t (0 : Fin 2) * 4000 + 1 * p.val = t.val * 4000 + p.val; omega
    | ⟨1, _⟩ => show win2_2.index t (1 : Fin 2) * 128 + 1 * q.val = q.val; omega
  rw [hemb]
  refine block_payload2 _ _ _ _ p q ⟨_, hr⟩ (fun k => ?_) (fun k => ?_)
  · show V c main_v47 (((cfg2.win 0).blk t).view.emb (ix2 p k))
      = V c main_v47 (ix2 (⟨t.val * 4000 + p.val, hr⟩ : Fin 100000) k)
    refine congrArg _ ?_
    funext a; apply Fin.ext
    match a with
    | ⟨0, _⟩ => show win2_0.index t (0 : Fin 2) * 4000 + 1 * p.val = t.val * 4000 + p.val; omega
    | ⟨1, _⟩ => show win2_0.index t (1 : Fin 2) * 128 + 1 * k.val = k.val; omega
  · show V c main_arg4 (((cfg2.win 1).blk t).view.emb (ix2 k q)) = V c main_arg4 (ix2 k q)
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega

/-- An index of the output array is in point t's block iff, on each axis, its coordinate is in the block's
    range: from block index × block size up to one block size further. -/
theorem mem_block2 (t : Fin cfg2.N) (i : S100000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v48).slice (win2_2.rect t)).set ↔ _
  rw [View.set_slice_whole, Rect.mem_set_unit]
  exact Iff.rfl

/-- Every index of the output array is in the block of a point that writes back: row r is in the block of
    point r / 4000 (there are 100000 = 25 · 4000 rows), the one column block holds all 128 columns, and every
    point writes its block back. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hlt : (i 0).val / 4000 < grid2.N := by rw [N_2]; omega
  obtain ⟨-, -, -, -, e20, e21⟩ := block_indices2 ⟨(i 0).val / 4000, hlt⟩
  refine ⟨⟨(i 0).val / 4000, hlt⟩, flush2_2 _, ?_⟩
  rw [mem_block2]
  intro a
  match a with
  | ⟨0, _⟩ =>
    show win2_2.index ⟨(i 0).val / 4000, hlt⟩ (0 : Fin 2) * 4000 ≤ (i 0).val
      ∧ (i 0).val < win2_2.index ⟨(i 0).val / 4000, hlt⟩ (0 : Fin 2) * 4000 + 4000
    rw [e20]; show (i 0).val / 4000 * 4000 ≤ (i 0).val ∧ (i 0).val < (i 0).val / 4000 * 4000 + 4000; omega
  | ⟨1, _⟩ =>
    show win2_2.index ⟨(i 0).val / 4000, hlt⟩ (1 : Fin 2) * 128 ≤ (i 1).val
      ∧ (i 1).val < win2_2.index ⟨(i 0).val / 4000, hlt⟩ (1 : Fin 2) * 128 + 128
    rw [e21]; omega

/-- After the region, the output array [100000, 128] is the whole matrix product of the region's two input
    arrays — the host's `dot_general` of the left array [100000, 128] and the right array [128, 128] as the
    region finds them —, for any contents of the buffers at the region's entry: every point writes back its block
    of rows of that product, and the blocks cover the array. -/
theorem matmul2 (V : (c : Dev nD) → (b : Ref sig .tc) → Buf (Elt Ideal) ((c : Thread nD τ).loc b)) (c : Dev nD) :
    (dat2 (F := Ideal) V c).arrAt 2 cfg2.N
      = Host.dotGeneral (F := Ideal) (φ₁ := .f32) (φ₂ := .f32)
          Cert.ReferenceIdeal.dot_S100000x128_S128x128_S100000x128_1_0_0_1_n_n none (V c main_v47) (V c main_arg4) :=
  (dat2 (F := Ideal) V c).arrAt_eq_of_cover 2 (product2 (V c main_v47) (V c main_arg4))
    (fun t _ => flushed2_eq V c t) covered2

end Cert.KernelIdeal.RegionValue

end
-- ==== Proof.Matmul4.lean ====
/-
  The third matrix product, computed by blocks of rows, is the whole product.

  The region runs over 25 points.  At point t it loads rows 4000·t … 4000·t + 3999 of the left operand
  [100000, 128] and the whole right operand [128, 128], reshapes the left block to its own shape (the identity), narrows both to bf16 — the identity at the
  ideal values, where every float format is the extended reals —, multiplies them on the matrix unit into the
  zero accumulator, and stores the [4000, 128] result as rows 4000·t … 4000·t + 3999 of the output
  [100000, 128].  Entry (p, q) of that block is the sum over k of lhs (4000·t + p, k) · rhs (k, q), which is
  entry (4000·t + p, q) of the whole product.  Row r of the output lies in the block of point r / 4000, and
  every point writes its block back; so after the region the output array is the host's `dot_general` of the
  two input arrays, whatever the buffers held when the region was entered.
-/
import proofs.«100644_j4544075399710_1_alg».proof.Proof.Gen.KernelIdeal.Frame
import proofs.«100644_j4544075399710_1_alg».proof.Proof.Gen.ReferenceIdeal
import proofs.«100644_j4544075399710_1_alg».proof.Proof.LibRowBlocks
import Idealize.ShloMosaic.Lib.Pipeline.Value

noncomputable section

namespace Cert.KernelIdeal.RegionValue

open Idealize.ShloMosaic Idealize.ShloMosaic.TcCoe Idealize.ShloMosaic.ValueIdx Cert.KernelIdeal Cert.KernelIdeal.Gen

/-- The offsets (0, 0) of a whole-block access are the zero offsets. -/
theorem zero_offsets4 : (![0, 0] : Fin 2 → Nat) = fun _ => 0 := funext fun a => by fin_cases a <;> rfl

/-- The whole product: the host's `dot_general` of a left operand [100000, 128] and a right operand [128, 128],
    contracting the left's columns with the right's rows. -/
abbrev product4 (a : FVec Ideal S100000x128 .f32) (b : FVec Ideal S128x128 .f32) : FVec Ideal S100000x128 .f32 :=
  Host.dotGeneral (F := Ideal) Cert.ReferenceIdeal.dot_S100000x128_S128x128_S100000x128_1_0_0_1_n_n none a b

/-- The body's payload at a block index (p, q): when row p of the left block is row r of the left array and
    the right block is the right array, it is the whole product's entry (r, q) — both are the sum over k of
    lhs (r, k) · rhs (k, q); narrowing to bf16 changes nothing at the ideal values. -/
theorem block_payload4 (x0 : Vec Ideal S4000x128 .f32) (x1 : Vec Ideal S128x128 .f32)
    (a : FVec Ideal S100000x128 .f32) (b : FVec Ideal S128x128 .f32)
    (p : Fin 4000) (q : Fin 128) (r : Fin 100000)
    (hx : ∀ k : Fin 128, (x0 (ix2 p k) : EReal) = a (ix2 r k)) (hw : ∀ k : Fin 128, (x1 (ix2 k q) : EReal) = b (ix2 k q)) :
    k4_pay1 (F := Ideal) x0 x1 (ix2 p q) = product4 a b (ix2 r q) := by
  unfold k4_pay1
  exact Cert.Lib.RowBlocks.matmul_rows_eq_dotGeneral (M := 100000) (K := 128) (N := 128) (B := 4000) none none a b
    (truncf .bf16 (shapeCast S4000x128 x0 shapeCasts_S4000x128_S4000x128) bitsLt_bf16_f32) (truncf .bf16 x1 bitsLt_bf16_f32) p r q
    (fun k => (congrFun (shapeCast_self x0 shapeCasts_S4000x128_S4000x128) (ix2 p k)).trans (hx k)) hw

/-- The block indices over the grid, decided point by point: at point t the left operand's and the output's
    blocks are row block t (column block 0), and the right operand's block is its one block (0, 0). -/
theorem block_indices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product of the two input arrays as the region finds them.
    An element of a block sits in its array, on each axis, at block index × block size + its coordinate in the
    block: local row p of the left and output blocks is row 4000·t + p, and the right block is the whole array. -/
theorem flushed4_eq (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal) (product4 (V c main_v67) (V c main_arg6)) := by
  show (cfg4.win 2).cut (grid4.coords t) ((dat4 (F := Ideal) V c).after 2 t) = _
  rw [after4_2]
  unfold out4_2
  rw [View.canon_unit_zero zero_offsets4]
  simp only [View.ld_unit_zero (S := S4000x128) zero_offsets4, View.ld_unit_zero (S := S128x128) zero_offsets4]
  obtain ⟨e00, e01, e10, e11, e20, e21⟩ := block_indices4 t
  funext j
  obtain ⟨p, q, rfl⟩ : ∃ (p : Fin 4000) (q : Fin 128), j = ix2 p q := ⟨j 0, j 1, eq_ix2 j⟩
  have hp : p.val < 4000 := p.isLt
  have ht : t.val < 25 := by have h : t.val < grid4.N := t.isLt; rw [N_4] at h; exact h
  have hr : t.val * 4000 + p.val < 100000 := by omega
  show k4_pay1 (F := Ideal) (iblk4 V c 0 t) (iblk4 V c 1 t) (ix2 p q)
    = product4 (V c main_v67) (V c main_arg6) (((cfg4.win 2).blk t).view.emb (ix2 p q))
  have hemb : ((cfg4.win 2).blk t).view.emb (ix2 p q) = ix2 (⟨t.val * 4000 + p.val, hr⟩ : Fin 100000) q := by
    funext a; apply Fin.ext
    match a with
    | ⟨0, _⟩ => show win4_2.index t (0 : Fin 2) * 4000 + 1 * p.val = t.val * 4000 + p.val; omega
    | ⟨1, _⟩ => show win4_2.index t (1 : Fin 2) * 128 + 1 * q.val = q.val; omega
  rw [hemb]
  refine block_payload4 _ _ _ _ p q ⟨_, hr⟩ (fun k => ?_) (fun k => ?_)
  · show V c main_v67 (((cfg4.win 0).blk t).view.emb (ix2 p k))
      = V c main_v67 (ix2 (⟨t.val * 4000 + p.val, hr⟩ : Fin 100000) k)
    refine congrArg _ ?_
    funext a; apply Fin.ext
    match a with
    | ⟨0, _⟩ => show win4_0.index t (0 : Fin 2) * 4000 + 1 * p.val = t.val * 4000 + p.val; omega
    | ⟨1, _⟩ => show win4_0.index t (1 : Fin 2) * 128 + 1 * k.val = k.val; omega
  · show V c main_arg6 (((cfg4.win 1).blk t).view.emb (ix2 k q)) = V c main_arg6 (ix2 k q)
    refine congrArg _ ?_
    funext a; apply Fin.ext
    match a with
    | ⟨0, _⟩ => show win4_1.index t (0 : Fin 2) * 128 + 1 * k.val = k.val; omega
    | ⟨1, _⟩ => show win4_1.index t (1 : Fin 2) * 128 + 1 * q.val = q.val; omega

/-- An index of the output array is in point t's block iff, on each axis, its coordinate is in the block's
    range: from block index × block size up to one block size further. -/
theorem mem_block4 (t : Fin cfg4.N) (i : S100000x128.Idx) :
    i ∈ ((cfg4.win 2).blk t).view.set ↔ ∀ a : Fin 2, win4_2.index t a * S4000x128.size a ≤ (i a).val
      ∧ (i a).val < win4_2.index t a * S4000x128.size a + S4000x128.size a := by
  show i ∈ ((View.whole main_v68).slice (win4_2.rect t)).set ↔ _
  rw [View.set_slice_whole, Rect.mem_set_unit]
  exact Iff.rfl

/-- Every index of the output array is in the block of a point that writes back: row r is in the block of
    point r / 4000 (there are 100000 = 25 · 4000 rows), the one column block holds all 128 columns, and every
    point writes its block back. -/
theorem covered4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hlt : (i 0).val / 4000 < grid4.N := by rw [N_4]; omega
  obtain ⟨-, -, -, -, e20, e21⟩ := block_indices4 ⟨(i 0).val / 4000, hlt⟩
  refine ⟨⟨(i 0).val / 4000, hlt⟩, flush4_2 _, ?_⟩
  rw [mem_block4]
  intro a
  match a with
  | ⟨0, _⟩ =>
    show win4_2.index ⟨(i 0).val / 4000, hlt⟩ (0 : Fin 2) * 4000 ≤ (i 0).val
      ∧ (i 0).val < win4_2.index ⟨(i 0).val / 4000, hlt⟩ (0 : Fin 2) * 4000 + 4000
    rw [e20]; show (i 0).val / 4000 * 4000 ≤ (i 0).val ∧ (i 0).val < (i 0).val / 4000 * 4000 + 4000; omega
  | ⟨1, _⟩ =>
    show win4_2.index ⟨(i 0).val / 4000, hlt⟩ (1 : Fin 2) * 128 ≤ (i 1).val
      ∧ (i 1).val < win4_2.index ⟨(i 0).val / 4000, hlt⟩ (1 : Fin 2) * 128 + 128
    rw [e21]; omega

/-- After the region, the output array [100000, 128] is the whole matrix product of the region's two input
    arrays — the host's `dot_general` of the left array [100000, 128] and the right array [128, 128] as the
    region finds them —, for any contents of the buffers at the region's entry: every point writes back its block
    of rows of that product, and the blocks cover the array. -/
theorem matmul4 (V : (c : Dev nD) → (b : Ref sig .tc) → Buf (Elt Ideal) ((c : Thread nD τ).loc b)) (c : Dev nD) :
    (dat4 (F := Ideal) V c).arrAt 2 cfg4.N
      = Host.dotGeneral (F := Ideal) (φ₁ := .f32) (φ₂ := .f32)
          Cert.ReferenceIdeal.dot_S100000x128_S128x128_S100000x128_1_0_0_1_n_n none (V c main_v67) (V c main_arg6) :=
  (dat4 (F := Ideal) V c).arrAt_eq_of_cover 2 (product4 (V c main_v67) (V c main_arg6))
    (fun t _ => flushed4_eq V c t) covered4

end Cert.KernelIdeal.RegionValue

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.BiasReluPoint.lean ====
/-
  A row added to every row of a matrix and the sum clamped at zero from below, read entry by entry.

  The whole-array term `Cert.Spec.reluAddRow a row`, read at (r, q), is max (a (r, q) + row (0, q)) 0.  A block
  of 4000 rows treated the same way — the row [1, 128] broadcast down the 4000 rows, added, and the maximum taken
  against the scalar zero broadcast to the block's shape — is, at the block's own index (p, q),
  max (x (p, q) + row (0, q)) 0.  At the ideal values both zeros are the one extended real that the word
  0x00000000 names, so the block's entry is the whole array's entry wherever the block's row p is the array's row r.
-/
import proofs.«100644_j4544075399710_1_alg».proof.Proof.Spec
import proofs.«100644_j4544075399710_1_alg».proof.Proof.LibRows
import Idealize.ShloMosaic.Lib.Pipeline.Value
import Idealize.ShloMosaic.Lib.ValueIdx

noncomputable section

namespace Cert.KernelIdeal.RegionValue.BiasRelu

open Idealize.ShloMosaic Idealize.ShloMosaic.ValueIdx

/-- The offsets (0, 0) are the zero offsets. -/
theorem offsets_zero : (![0, 0] : Fin 2 → Nat) = fun _ => 0 := funext fun a => by fin_cases a <;> rfl

/-- The whole-array term at (r, q): the matrix's entry (r, q) plus the row's entry (0, q), clamped at zero. -/
theorem reluAddRow_apply (a : FVec Ideal Cert.ReferenceIdeal.S100000x128 .f32) (row : FVec Ideal Cert.ReferenceIdeal.S1x128 .f32)
    (r : Fin 100000) (q : Fin 128) :
    Cert.Spec.reluAddRow a row (ix2 r q) = max (a (ix2 r q) + row (ix2 0 q)) (Ideal.ofBits .f32 0x00000000#32) := by
  unfold Cert.Spec.reluAddRow
  rw [maximumf_apply, addf_apply,
    broadcastInDim_apply ![0, 1] _ row (ix2 r q) (ix2 0 q) (fun a => by
      match a with
      | ⟨0, _⟩ => rfl
      | ⟨1, _⟩ => rfl),
    broadcastInDim_apply ![] _ (constant (F := Ideal) Cert.ReferenceIdeal.S_ .f32 0x00000000#32) (ix2 r q) ix0 (fun a => a.elim0),
    constant_apply]

/-- A block of 4000 rows at (p, q): the block's entry (p, q) plus the row's entry (0, q), clamped at zero. The
    two reshapes to the same shape are the identity, the row broadcast down the rows reads the row at (0, q),
    and the broadcast scalar reads the scalar. -/
theorem block_apply (x0 : FVec Ideal ⟨2, ![4000, 128]⟩ .f32) (x1 : FVec Ideal ⟨2, ![1, 128]⟩ .f32)
    (h0 : (⟨2, ![4000, 128]⟩ : Shape).ShapeCasts ⟨2, ![4000, 128]⟩) (h1 : (⟨2, ![1, 128]⟩ : Shape).ShapeCasts ⟨2, ![1, 128]⟩)
    (hb : (⟨2, ![1, 128]⟩ : Shape).Broadcasts ⟨2, ![4000, 128]⟩) (p : Fin 4000) (q : Fin 128) :
    (maximumf (F := Ideal)
        (addf (shapeCast ⟨2, ![4000, 128]⟩ x0 h0)
          (broadcastTo ⟨2, ![4000, 128]⟩ (shapeCast ⟨2, ![1, 128]⟩ (shapeCast ⟨2, ![1, 128]⟩ x1 h1) h1) hb))
        (broadcast ⟨2, ![4000, 128]⟩ (Scalar.ofBits .f32 0x00000000#32)) : FVec Ideal ⟨2, ![4000, 128]⟩ .f32) (ix2 p q)
      = max (x0 (ix2 p q) + x1 (ix2 0 q)) (Ideal.ofBits .f32 0x00000000#32) := by
  rw [maximumf_apply, addf_apply, broadcast_apply, shapeCast_self, shapeCast_self, shapeCast_self,
    Cert.Lib.Rows.broadcastTo_row_apply]
  rfl

end Cert.KernelIdeal.RegionValue.BiasRelu

end
-- ==== Proof.BiasRelu1.lean ====
/-
  Region 1 of the kernel's program (bias and clamp): what its output array holds when the region is left.

  The region walks 25 row blocks of 4000 rows.  At point t it reads rows 4000 t … 4000 t + 3999 of the matrix
  %45 [100000, 128] and the whole row %46 [1, 128], adds the row to every row of the block, clamps the sum at
  zero from below, and writes the block back to the same rows of %47.  Entry (p, q) of what point t writes is
  therefore entry (4000 t + p, q) of the whole-array term `Cert.Spec.reluAddRow` of the two arrays; every row r of the
  array lies in the block of point r / 4000 and every point writes back, so the array ends holding that term —
  whatever the buffers held when the region was entered.
-/
import proofs.«100644_j4544075399710_1_alg».proof.Proof.BiasReluPoint
import proofs.«100644_j4544075399710_1_alg».proof.Proof.Gen.KernelIdeal.Frame

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

namespace BiasRelu

/-- Region 1's payload at the block index (p, q) is the whole-array term at the array index (r, q), when the
    block's entry (p, q) is the matrix's entry (r, q) and the block's row agrees with the row at column q. -/
theorem pay1_apply (x0 : Vec Ideal S4000x128 .f32) (x1 : Vec Ideal S1x128 .f32)
    (a : FVec Ideal S100000x128 .f32) (row : FVec Ideal S1x128 .f32) (p : Fin 4000) (q : Fin 128) (r : Fin 100000)
    (hx : x0 (ix2 p q) = a (ix2 r q)) (hrow : x1 (ix2 0 q) = row (ix2 0 q)) :
    k1_pay1 x0 x1 (ix2 p q) = Cert.Spec.reluAddRow a row (ix2 r q) := by
  unfold k1_pay1
  rw [reluAddRow_apply, ← hx, ← hrow]
  exact block_apply x0 x1 _ _ _ p q

/-- Region 1's index maps, decided once over the 25 points: at point t the two matrix windows sit at row block t,
    column block 0, and the row's window at block (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t — rows 4000 t … 4000 t + 3999 — of the whole-array term of the two arrays
    the region reads: a block's coordinate in the array is the block index times the block size plus the
    coordinate inside the block. -/
theorem flushed1 (c : Dev nD) (t : Fin cfg1.N) :
    (dat1 (F := Ideal) V c).flushed 2 t
      = ((cfg1.win 2).blk t).view.read (Elt Ideal) (Cert.Spec.reluAddRow (V c main_v45) (V c main_v46)) := by
  show (cfg1.win 2).cut (grid1.coords t) ((dat1 V c).after 2 t) = _
  rw [after1_2]
  unfold out1_2
  rw [View.canon_unit_zero offsets_zero]
  simp only [View.ld_unit_zero (S := S4000x128) offsets_zero, View.ld_unit_zero (S := S1x128) offsets_zero]
  obtain ⟨e0, e1, e2, e3, e4, e5⟩ := index_facts1 t
  have hN : t.val < 25 := Nat.lt_of_lt_of_eq t.isLt N_1
  funext j
  have hj0 : (j 0).val < 4000 := (j 0).isLt
  have hj1 : (j 1).val < 128 := (j 1).isLt
  have hemb : ((cfg1.win 2).blk t).view.emb j
      = ix2 (⟨t.val * 4000 + (j 0).val, by omega⟩ : Fin 100000) (⟨(j 1).val, hj1⟩ : Fin 128) := by
    funext a; apply Fin.ext
    match a with
    | ⟨0, _⟩ => show win1_2.index t (0 : Fin 2) * 4000 + 1 * (j 0).val = t.val * 4000 + (j 0).val; omega
    | ⟨1, _⟩ => show win1_2.index t (1 : Fin 2) * 128 + 1 * (j 1).val = (j 1).val; omega
  show k1_pay1 (iblk1 V c 0 t) (iblk1 V c 1 t) (ix2 (⟨(j 0).val, hj0⟩ : Fin 4000) (⟨(j 1).val, hj1⟩ : Fin 128))
    = Cert.Spec.reluAddRow (V c main_v45) (V c main_v46) (((cfg1.win 2).blk t).view.emb j)
  rw [hemb]
  refine pay1_apply _ _ _ _ _ _ _ ?_ ?_
  · show V c main_v45 (((cfg1.win 0).blk t).view.emb (ix2 (⟨(j 0).val, hj0⟩ : Fin 4000) (⟨(j 1).val, hj1⟩ : Fin 128))) = _
    congr 1
    funext a; apply Fin.ext
    match a with
    | ⟨0, _⟩ => show win1_0.index t (0 : Fin 2) * 4000 + 1 * (j 0).val = t.val * 4000 + (j 0).val; omega
    | ⟨1, _⟩ => show win1_0.index t (1 : Fin 2) * 128 + 1 * (j 1).val = (j 1).val; omega
  · show V c main_v46 (((cfg1.win 1).blk t).view.emb (ix2 (0 : Fin 1) (⟨(j 1).val, hj1⟩ : Fin 128))) = _
    congr 1
    funext a; apply Fin.ext
    match a with
    | ⟨0, _⟩ => show win1_1.index t (0 : Fin 2) * 1 + 1 * 0 = 0; omega
    | ⟨1, _⟩ => show win1_1.index t (1 : Fin 2) * 128 + 1 * (j 1).val = (j 1).val; omega

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v47).slice (win1_2.rect t)).set ↔ _
  rw [View.set_slice_whole, Rect.mem_set_unit]
  exact Iff.rfl

/-- Every index of the output array is in the block of a point that writes back: row r lies in row block r / 4000,
    and 100000 = 25 · 4000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨e0, e1, e2, e3, e4, e5⟩ := index_facts1 t
  have ht : t.val = (i 0).val / 4000 := rfl
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

end BiasRelu

/-- After region 1, whatever the buffers held when it was entered, its output array %47 holds the whole-array
    bias-and-clamp term of the two arrays it reads: the row %46 added to every row of the matrix %45, clamped at
    zero from below. -/
theorem biasRelu1 (V : (c : Dev nD) → (b : Ref sig .tc) → Buf (Elt Ideal) ((c : Thread nD τ).loc b)) (c : Dev nD) :
    (dat1 (F := Ideal) V c).arrAt 2 cfg1.N = Cert.Spec.reluAddRow (V c main_v45) (V c main_v46) :=
  (dat1 (F := Ideal) V c).arrAt_eq_of_cover 2 (Cert.Spec.reluAddRow (V c main_v45) (V c main_v46))
    (fun t _ => BiasRelu.flushed1 V c t) BiasRelu.cover1

end Cert.KernelIdeal.RegionValue

end
-- ==== Proof.BiasRelu3.lean ====
/-
  Region 3 of the kernel's program (bias and clamp): what its output array holds when the region is left.

  The region walks 25 row blocks of 4000 rows.  At point t it reads rows 4000 t … 4000 t + 3999 of the matrix
  %65 [100000, 128] and the whole row %66 [1, 128], adds the row to every row of the block, clamps the sum at
  zero from below, and writes the block back to the same rows of %67.  Entry (p, q) of what point t writes is
  therefore entry (4000 t + p, q) of the whole-array term `Cert.Spec.reluAddRow` of the two arrays; every row r of the
  array lies in the block of point r / 4000 and every point writes back, so the array ends holding that term —
  whatever the buffers held when the region was entered.
-/
import proofs.«100644_j4544075399710_1_alg».proof.Proof.BiasReluPoint
import proofs.«100644_j4544075399710_1_alg».proof.Proof.Gen.KernelIdeal.Frame

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

namespace BiasRelu

/-- Region 3's payload at the block index (p, q) is the whole-array term at the array index (r, q), when the
    block's entry (p, q) is the matrix's entry (r, q) and the block's row agrees with the row at column q. -/
theorem pay3_apply (x0 : Vec Ideal S4000x128 .f32) (x1 : Vec Ideal S1x128 .f32)
    (a : FVec Ideal S100000x128 .f32) (row : FVec Ideal S1x128 .f32) (p : Fin 4000) (q : Fin 128) (r : Fin 100000)
    (hx : x0 (ix2 p q) = a (ix2 r q)) (hrow : x1 (ix2 0 q) = row (ix2 0 q)) :
    k3_pay1 x0 x1 (ix2 p q) = Cert.Spec.reluAddRow a row (ix2 r q) := by
  unfold k3_pay1
  rw [reluAddRow_apply, ← hx, ← hrow]
  exact block_apply x0 x1 _ _ _ p q

/-- Region 3's index maps, decided once over the 25 points: at point t the two matrix windows sit at row block t,
    column block 0, and the row's window at block (0, 0). -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t — rows 4000 t … 4000 t + 3999 — of the whole-array term of the two arrays
    the region reads: a block's coordinate in the array is the block index times the block size plus the
    coordinate inside the block. -/
theorem flushed3 (c : Dev nD) (t : Fin cfg3.N) :
    (dat3 (F := Ideal) V c).flushed 2 t
      = ((cfg3.win 2).blk t).view.read (Elt Ideal) (Cert.Spec.reluAddRow (V c main_v65) (V c main_v66)) := by
  show (cfg3.win 2).cut (grid3.coords t) ((dat3 V c).after 2 t) = _
  rw [after3_2]
  unfold out3_2
  rw [View.canon_unit_zero offsets_zero]
  simp only [View.ld_unit_zero (S := S4000x128) offsets_zero, View.ld_unit_zero (S := S1x128) offsets_zero]
  obtain ⟨e0, e1, e2, e3, e4, e5⟩ := index_facts3 t
  have hN : t.val < 25 := Nat.lt_of_lt_of_eq t.isLt N_3
  funext j
  have hj0 : (j 0).val < 4000 := (j 0).isLt
  have hj1 : (j 1).val < 128 := (j 1).isLt
  have hemb : ((cfg3.win 2).blk t).view.emb j
      = ix2 (⟨t.val * 4000 + (j 0).val, by omega⟩ : Fin 100000) (⟨(j 1).val, hj1⟩ : Fin 128) := by
    funext a; apply Fin.ext
    match a with
    | ⟨0, _⟩ => show win3_2.index t (0 : Fin 2) * 4000 + 1 * (j 0).val = t.val * 4000 + (j 0).val; omega
    | ⟨1, _⟩ => show win3_2.index t (1 : Fin 2) * 128 + 1 * (j 1).val = (j 1).val; omega
  show k3_pay1 (iblk3 V c 0 t) (iblk3 V c 1 t) (ix2 (⟨(j 0).val, hj0⟩ : Fin 4000) (⟨(j 1).val, hj1⟩ : Fin 128))
    = Cert.Spec.reluAddRow (V c main_v65) (V c main_v66) (((cfg3.win 2).blk t).view.emb j)
  rw [hemb]
  refine pay3_apply _ _ _ _ _ _ _ ?_ ?_
  · show V c main_v65 (((cfg3.win 0).blk t).view.emb (ix2 (⟨(j 0).val, hj0⟩ : Fin 4000) (⟨(j 1).val, hj1⟩ : Fin 128))) = _
    congr 1
    funext a; apply Fin.ext
    match a with
    | ⟨0, _⟩ => show win3_0.index t (0 : Fin 2) * 4000 + 1 * (j 0).val = t.val * 4000 + (j 0).val; omega
    | ⟨1, _⟩ => show win3_0.index t (1 : Fin 2) * 128 + 1 * (j 1).val = (j 1).val; omega
  · show V c main_v66 (((cfg3.win 1).blk t).view.emb (ix2 (0 : Fin 1) (⟨(j 1).val, hj1⟩ : Fin 128))) = _
    congr 1
    funext a; apply Fin.ext
    match a with
    | ⟨0, _⟩ => show win3_1.index t (0 : Fin 2) * 1 + 1 * 0 = 0; omega
    | ⟨1, _⟩ => show win3_1.index t (1 : Fin 2) * 128 + 1 * (j 1).val = (j 1).val; omega

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v67).slice (win3_2.rect t)).set ↔ _
  rw [View.set_slice_whole, Rect.mem_set_unit]
  exact Iff.rfl

/-- Every index of the output array is in the block of a point that writes back: row r lies in row block r / 4000,
    and 100000 = 25 · 4000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 25 := N_3
  let t : Fin cfg3.N := ⟨(i 0).val / 4000, by rw [hN]; omega⟩
  obtain ⟨e0, e1, e2, e3, e4, e5⟩ := index_facts3 t
  have ht : t.val = (i 0).val / 4000 := rfl
  refine ⟨t, flush3_2 t, ?_⟩
  rw [mem_blk3]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 128 ≤ (i 1).val ∧ (i 1).val < win3_2.index t (1 : Fin 2) * 128 + 128; omega

end BiasRelu

/-- After region 3, whatever the buffers held when it was entered, its output array %67 holds the whole-array
    bias-and-clamp term of the two arrays it reads: the row %66 added to every row of the matrix %65, clamped at
    zero from below. -/
theorem biasRelu3 (V : (c : Dev nD) → (b : Ref sig .tc) → Buf (Elt Ideal) ((c : Thread nD τ).loc b)) (c : Dev nD) :
    (dat3 (F := Ideal) V c).arrAt 2 cfg3.N = Cert.Spec.reluAddRow (V c main_v65) (V c main_v66) :=
  (dat3 (F := Ideal) V c).arrAt_eq_of_cover 2 (Cert.Spec.reluAddRow (V c main_v65) (V c main_v66))
    (fun t _ => BiasRelu.flushed3 V c t) BiasRelu.cover3

end Cert.KernelIdeal.RegionValue

end
-- ==== Proof.BiasRelu5.lean ====
/-
  Region 5 of the kernel's program (bias and clamp): what its output array holds when the region is left.

  The region walks 25 row blocks of 4000 rows.  At point t it reads rows 4000 t … 4000 t + 3999 of the matrix
  %85 [100000, 128] and the whole row %86 [1, 128], adds the row to every row of the block, clamps the sum at
  zero from below, and writes the block back to the same rows of %87.  Entry (p, q) of what point t writes is
  therefore entry (4000 t + p, q) of the whole-array term `Cert.Spec.reluAddRow` of the two arrays; every row r of the
  array lies in the block of point r / 4000 and every point writes back, so the array ends holding that term —
  whatever the buffers held when the region was entered.
-/
import proofs.«100644_j4544075399710_1_alg».proof.Proof.BiasReluPoint
import proofs.«100644_j4544075399710_1_alg».proof.Proof.Gen.KernelIdeal.Frame

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

namespace BiasRelu

/-- Region 5's payload at the block index (p, q) is the whole-array term at the array index (r, q), when the
    block's entry (p, q) is the matrix's entry (r, q) and the block's row agrees with the row at column q. -/
theorem pay5_apply (x0 : Vec Ideal S4000x128 .f32) (x1 : Vec Ideal S1x128 .f32)
    (a : FVec Ideal S100000x128 .f32) (row : FVec Ideal S1x128 .f32) (p : Fin 4000) (q : Fin 128) (r : Fin 100000)
    (hx : x0 (ix2 p q) = a (ix2 r q)) (hrow : x1 (ix2 0 q) = row (ix2 0 q)) :
    k5_pay1 x0 x1 (ix2 p q) = Cert.Spec.reluAddRow a row (ix2 r q) := by
  unfold k5_pay1
  rw [reluAddRow_apply, ← hx, ← hrow]
  exact block_apply x0 x1 _ _ _ p q

/-- Region 5's index maps, decided once over the 25 points: at point t the two matrix windows sit at row block t,
    column block 0, and the row's window at block (0, 0). -/
theorem index_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- What point t writes back is block t — rows 4000 t … 4000 t + 3999 — of the whole-array term of the two arrays
    the region reads: a block's coordinate in the array is the block index times the block size plus the
    coordinate inside the block. -/
theorem flushed5 (c : Dev nD) (t : Fin cfg5.N) :
    (dat5 (F := Ideal) V c).flushed 2 t
      = ((cfg5.win 2).blk t).view.read (Elt Ideal) (Cert.Spec.reluAddRow (V c main_v85) (V c main_v86)) := by
  show (cfg5.win 2).cut (grid5.coords t) ((dat5 V c).after 2 t) = _
  rw [after5_2]
  unfold out5_2
  rw [View.canon_unit_zero offsets_zero]
  simp only [View.ld_unit_zero (S := S4000x128) offsets_zero, View.ld_unit_zero (S := S1x128) offsets_zero]
  obtain ⟨e0, e1, e2, e3, e4, e5⟩ := index_facts5 t
  have hN : t.val < 25 := Nat.lt_of_lt_of_eq t.isLt N_5
  funext j
  have hj0 : (j 0).val < 4000 := (j 0).isLt
  have hj1 : (j 1).val < 128 := (j 1).isLt
  have hemb : ((cfg5.win 2).blk t).view.emb j
      = ix2 (⟨t.val * 4000 + (j 0).val, by omega⟩ : Fin 100000) (⟨(j 1).val, hj1⟩ : Fin 128) := by
    funext a; apply Fin.ext
    match a with
    | ⟨0, _⟩ => show win5_2.index t (0 : Fin 2) * 4000 + 1 * (j 0).val = t.val * 4000 + (j 0).val; omega
    | ⟨1, _⟩ => show win5_2.index t (1 : Fin 2) * 128 + 1 * (j 1).val = (j 1).val; omega
  show k5_pay1 (iblk5 V c 0 t) (iblk5 V c 1 t) (ix2 (⟨(j 0).val, hj0⟩ : Fin 4000) (⟨(j 1).val, hj1⟩ : Fin 128))
    = Cert.Spec.reluAddRow (V c main_v85) (V c main_v86) (((cfg5.win 2).blk t).view.emb j)
  rw [hemb]
  refine pay5_apply _ _ _ _ _ _ _ ?_ ?_
  · show V c main_v85 (((cfg5.win 0).blk t).view.emb (ix2 (⟨(j 0).val, hj0⟩ : Fin 4000) (⟨(j 1).val, hj1⟩ : Fin 128))) = _
    congr 1
    funext a; apply Fin.ext
    match a with
    | ⟨0, _⟩ => show win5_0.index t (0 : Fin 2) * 4000 + 1 * (j 0).val = t.val * 4000 + (j 0).val; omega
    | ⟨1, _⟩ => show win5_0.index t (1 : Fin 2) * 128 + 1 * (j 1).val = (j 1).val; omega
  · show V c main_v86 (((cfg5.win 1).blk t).view.emb (ix2 (0 : Fin 1) (⟨(j 1).val, hj1⟩ : Fin 128))) = _
    congr 1
    funext a; apply Fin.ext
    match a with
    | ⟨0, _⟩ => show win5_1.index t (0 : Fin 2) * 1 + 1 * 0 = 0; omega
    | ⟨1, _⟩ => show win5_1.index t (1 : Fin 2) * 128 + 1 * (j 1).val = (j 1).val; omega

/-- An index of the output array is in point t's block iff each coordinate is in the block's range on its axis. -/
theorem mem_blk5 (t : Fin cfg5.N) (i : S100000x128.Idx) :
    i ∈ ((cfg5.win 2).blk t).view.set ↔ ∀ a : Fin 2, win5_2.index t a * S4000x128.size a ≤ (i a).val ∧ (i a).val < win5_2.index t a * S4000x128.size a + S4000x128.size a := by
  show i ∈ ((View.whole main_v87).slice (win5_2.rect t)).set ↔ _
  rw [View.set_slice_whole, Rect.mem_set_unit]
  exact Iff.rfl

/-- Every index of the output array is in the block of a point that writes back: row r lies in row block r / 4000,
    and 100000 = 25 · 4000. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 25 := N_5
  let t : Fin cfg5.N := ⟨(i 0).val / 4000, by rw [hN]; omega⟩
  obtain ⟨e0, e1, e2, e3, e4, e5⟩ := index_facts5 t
  have ht : t.val = (i 0).val / 4000 := rfl
  refine ⟨t, flush5_2 t, ?_⟩
  rw [mem_blk5]
  intro a
  match a with
  | ⟨0, _⟩ => show win5_2.index t (0 : Fin 2) * 4000 ≤ (i 0).val ∧ (i 0).val < win5_2.index t (0 : Fin 2) * 4000 + 4000; omega
  | ⟨1, _⟩ => show win5_2.index t (1 : Fin 2) * 128 ≤ (i 1).val ∧ (i 1).val < win5_2.index t (1 : Fin 2) * 128 + 128; omega

end BiasRelu

/-- After region 5, whatever the buffers held when it was entered, its output array %87 holds the whole-array
    bias-and-clamp term of the two arrays it reads: the row %86 added to every row of the matrix %85, clamped at
    zero from below. -/
theorem biasRelu5 (V : (c : Dev nD) → (b : Ref sig .tc) → Buf (Elt Ideal) ((c : Thread nD τ).loc b)) (c : Dev nD) :
    (dat5 (F := Ideal) V c).arrAt 2 cfg5.N = Cert.Spec.reluAddRow (V c main_v85) (V c main_v86) :=
  (dat5 (F := Ideal) V c).arrAt_eq_of_cover 2 (Cert.Spec.reluAddRow (V c main_v85) (V c main_v86))
    (fun t _ => BiasRelu.flushed5 V c t) BiasRelu.cover5

end Cert.KernelIdeal.RegionValue

end
-- ==== Proof.Classify6Row.lean ====
/-
  The classifier's mathematics, entry by entry.

  At the ideal values — floats are extended reals, every operation exact — the classifier kernel's payload on a
  block of 4000 rows and the host's classifier on the whole array of 100000 rows compute, at each entry (row, q),
  one and the same number: the logit z(row, q) = Σ_k feature(row, k) · weight(k, q) + bias(q), minus the row's
  maximum m (the fold of max from −∞ over the row's two logits, taken once more against −∞), minus the logarithm
  of Σ_k exp (z(row, k) − m).  The two programs differ only in layout: the kernel reduces over the columns of a
  block and lays the results back along the rows by a reshape [4000] → [4000, 1] and a broadcast to [4000, 2];
  the host reduces over the columns of the array and broadcasts [100000] → [100000, 1] → [100000, 2].  Both are
  read here at an index, and both come to the same function rowLogSoftmax of the row's two logits; the logits
  agree because a row block times the whole weight matrix is the rows of the whole product.  No finiteness is
  used: the two sides are the same expression of the same extended reals.
-/
import proofs.«100644_j4544075399710_1_alg».proof.Proof.Spec
import proofs.«100644_j4544075399710_1_alg».proof.Proof.Gen.KernelIdeal.Skeleton
import proofs.«100644_j4544075399710_1_alg».proof.Proof.LibRowBlocks
import proofs.«100644_j4544075399710_1_alg».proof.Proof.LibRows
import Idealize.ShloMosaic.Lib.IdealHost
import Idealize.ShloMosaic.Lib.ValueLayout

noncomputable section

namespace Cert.KernelIdeal.RegionValue.Classify

open Idealize.ShloMosaic Idealize.ShloMosaic.ValueIdx Cert.KernelIdeal Cert.KernelIdeal.Gen

/-! ## Columns: the keepdims layout operations read at an index -/

section Columns
variable {α : Type}

/-- A vector [R] reshaped to the column [R, 1], read at (p, 0), is the vector at p. -/
theorem shapeCast_vec_col_apply {R : Nat} (x : (⟨1, ![R]⟩ : Shape).Idx → α)
    (h : (⟨1, ![R]⟩ : Shape).ShapeCasts ⟨2, ![R, 1]⟩) (p : Fin R) (u : Fin 1) :
    shapeCast ⟨2, ![R, 1]⟩ x h (ix2 p u) = x (ix1 p) :=
  shapeCast_apply x h (ix2 p u) (ix1 p) (by
    rw [Shape.rowMajor_val_one, Shape.rowMajor_val_two]
    show p.val = p.val * 1 + u.val
    have := u.isLt; omega)

/-- A column [R, 1] broadcast to [R, C], read at (p, q), is the column at (p, 0). -/
theorem broadcastTo_col_apply {R C : Nat} (x : (⟨2, ![R, 1]⟩ : Shape).Idx → α)
    (h : (⟨2, ![R, 1]⟩ : Shape).Broadcasts ⟨2, ![R, C]⟩) (p : Fin R) (q : Fin C) :
    broadcastTo ⟨2, ![R, C]⟩ x h (ix2 p q) = x (ix2 p 0) :=
  broadcastTo_apply x h (ix2 p q) (ix2 p 0) (fun a => by
    match a with
    | ⟨0, _⟩ =>
      show p.val = if R = 1 then 0 else p.val
      by_cases hR : R = 1
      · rw [if_pos hR]; have := p.isLt; omega
      · rw [if_neg hR]
    | ⟨1, _⟩ => show (0 : Nat) = if (1 : Nat) = 1 then 0 else q.val; rw [if_pos rfl])

/-- A vector [R] broadcast along axis 0 into the column [R, 1], read at (r, 0), is the vector at r. -/
theorem broadcastInDim_vec_col_apply {R : Nat} (h : (⟨1, ![R]⟩ : Shape).BroadcastsInDim ⟨2, ![R, 1]⟩ ![0])
    (x : (⟨1, ![R]⟩ : Shape).Idx → α) (r : Fin R) (u : Fin 1) :
    broadcastInDim ⟨2, ![R, 1]⟩ ![0] h x (ix2 r u) = x (ix1 r) :=
  broadcastInDim_apply ![0] h x (ix2 r u) (ix1 r) (fun a => by
    match a with
    | ⟨0, _⟩ =>
      show r.val = if R = 1 then 0 else r.val
      by_cases hR : R = 1
      · rw [if_pos hR]; have := r.isLt; omega
      · rw [if_neg hR])

/-- A column [R, 1] broadcast along both axes into [R, C], read at (r, q), is the column at (r, 0). -/
theorem broadcastInDim_col_apply {R C : Nat} (h : (⟨2, ![R, 1]⟩ : Shape).BroadcastsInDim ⟨2, ![R, C]⟩ ![0, 1])
    (x : (⟨2, ![R, 1]⟩ : Shape).Idx → α) (r : Fin R) (q : Fin C) :
    broadcastInDim ⟨2, ![R, C]⟩ ![0, 1] h x (ix2 r q) = x (ix2 r 0) :=
  broadcastInDim_apply ![0, 1] h x (ix2 r q) (ix2 r 0) (fun a => by
    match a with
    | ⟨0, _⟩ =>
      show r.val = if R = 1 then 0 else r.val
      by_cases hR : R = 1
      · rw [if_pos hR]; have := r.isLt; omega
      · rw [if_neg hR]
    | ⟨1, _⟩ => show (0 : Nat) = if (1 : Nat) = 1 then 0 else q.val; rw [if_pos rfl])

end Columns

/-! ## Reductions over the two columns of a row -/

/-- In [R, 2] reduced over its columns, the index over row r with column k inserted is (r, k). -/
theorem lift_row {R : Nat} (h : (⟨2, ![R, 2]⟩ : Shape).Reduces [1] ⟨1, ![R]⟩) (r : Fin R) (k : Fin 2) :
    h.lift (ix1 r) k = ix2 r k := by
  funext c; apply Fin.ext
  match c with
  | ⟨0, _⟩ => rfl
  | ⟨1, _⟩ => rfl

/-- A kernel's maximum over the columns of [R, 2], at row r: the fold of max, from the accumulator's value, over
    the row's two entries. -/
theorem multiReduction_max_row {R : Nat} (src : FVec Ideal ⟨2, ![R, 2]⟩ .f32) (acc : BitVec 32)
    (h : (⟨2, ![R, 2]⟩ : Shape).Reduces [1] ⟨1, ![R]⟩) (hφ : FKind.Formats .f32)
    (hacc : acc = FKind.maximumf.neutral .f32 hφ) (r : Fin R) :
    multiReduction .maximumf [1] ⟨1, ![R]⟩ src acc h hφ hacc (ix1 r)
      = (Finset.univ : Finset (Fin 2)).fold max (Ideal.ofBits .f32 acc) (fun k => src (ix2 r k)) := by
  have e : (src ∘ h.lift (ix1 r)) = fun k : Fin 2 => src (ix2 r k) := funext fun k => congrArg src (lift_row h r k)
  refine (Ideal.multiReduction_maximumf_single src acc h hφ hacc (ix1 r)).trans ?_
  show (Finset.univ : Finset (Fin 2)).fold max (Ideal.ofBits .f32 acc) (src ∘ h.lift (ix1 r)) = _
  rw [e]; rfl

/-- A kernel's sum over the columns of [R, 2], at row r: the sum of the row's two entries. -/
theorem multiReduction_add_row {R : Nat} (src : FVec Ideal ⟨2, ![R, 2]⟩ .f32) (acc : BitVec 32)
    (h : (⟨2, ![R, 2]⟩ : Shape).Reduces [1] ⟨1, ![R]⟩) (hφ : FKind.Formats .f32)
    (hacc : acc = FKind.add.neutral .f32 hφ) (r : Fin R) :
    multiReduction .add [1] ⟨1, ![R]⟩ src acc h hφ hacc (ix1 r) = ∑ k : Fin 2, src (ix2 r k) := by
  refine (Ideal.multiReduction_add_single src acc h hφ hacc (ix1 r)).trans ?_
  exact Finset.sum_congr rfl fun k _ => congrArg src (lift_row h r k)

/-- The host's maximum over the columns of [R, 2], at row r: the fold of max, from the initial value, over the
    row's two entries. -/
theorem hostReduce_max_row {R : Nat} (x : FVec Ideal ⟨2, ![R, 2]⟩ .f32) (init : (⟨0, ![]⟩ : Shape).Idx → Ideal .f32)
    (h' : (⟨2, ![R, 2]⟩ : Shape).ReducesTo [1] ⟨1, ![R]⟩) (h : (⟨2, ![R, 2]⟩ : Shape).Reduces [1] ⟨1, ![R]⟩)
    (hu : 0 < (⟨0, ![]⟩ : Shape).numel) (r : Fin R) :
    Host.reduce FloatOps.maximumf x init h' hu (ix1 r)
      = (Finset.univ : Finset (Fin 2)).fold max (init (Shape.Idx.first hu)) (fun k => x (ix2 r k)) := by
  have e : (x ∘ h.lift (ix1 r)) = fun k : Fin 2 => x (ix2 r k) := funext fun k => congrArg x (lift_row h r k)
  refine (Host.reduce_eq_fold_single FloatOps.maximumf x init h' h hu (ix1 r)).trans ?_
  show (Finset.univ : Finset (Fin 2)).fold max (init (Shape.Idx.first hu)) (x ∘ h.lift (ix1 r)) = _
  rw [e]; rfl

/-- The host's sum over the columns of [R, 2], at row r: the initial value plus the sum of the row's two entries. -/
theorem hostReduceAdd_row {R : Nat} (x : FVec Ideal ⟨2, ![R, 2]⟩ .f32) (init : (⟨0, ![]⟩ : Shape).Idx → Ideal .f32)
    (h' : (⟨2, ![R, 2]⟩ : Shape).ReducesTo [1] ⟨1, ![R]⟩) (h : (⟨2, ![R, 2]⟩ : Shape).Reduces [1] ⟨1, ![R]⟩)
    (hu : 0 < (⟨0, ![]⟩ : Shape).numel) (r : Fin R) :
    Host.reduceAdd x init h' hu (ix1 r) = init (Shape.Idx.first hu) + ∑ k : Fin 2, x (ix2 r k) := by
  refine (hostReduceAdd_apply x init h' hu (ix1 r)).trans ?_
  refine (Ideal.hostReduceAdd_single h' h x _ (ix1 r)).trans ?_
  exact congrArg (init (Shape.Idx.first hu) + ·) (Finset.sum_congr rfl fun k _ => congrArg x (lift_row h r k))

/-! ## Exponential and logarithm read at an index -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-! ## The logarithm of the softmax of one row of two entries -/

/-- A row's maximum as both programs take it: the fold of max from −∞ over the two entries, once more against −∞. -/
def rowMax (row : Fin 2 → EReal) : EReal :=
  max (Ideal.ofBits .f32 0xFF800000#32) ((Finset.univ : Finset (Fin 2)).fold max (Ideal.ofBits .f32 0xFF800000#32) row)

/-- The logarithm of the softmax of a row of two entries, at entry q: with m the row's maximum,
    (row q − m) − log (Σ_k exp (row k − m)). -/
def rowLogSoftmax (row : Fin 2 → EReal) (q : Fin 2) : EReal :=
  (row q - rowMax row) - Ideal.log (∑ k : Fin 2, Ideal.exp (row k - rowMax row))

/-! ## The kernel's side: a block [4000, 2] of logits -/

/-- The kernel's row maxima of a block of logits: the maximum over the columns from −∞, then against −∞. -/
def blockRowMax (v10 : FVec Ideal S4000x2 .f32) : FVec Ideal S4000 .f32 :=
  maximumf (broadcast S4000 (Scalar.ofBits .f32 0xFF800000#32))
    (multiReduction .maximumf [1] S4000 v10 0xFF800000#32 reduces_S4000x2_S4000 (.inl rfl) rfl)

/-- The block of logits minus its row maxima, laid along the rows. -/
def blockShifted (v10 : FVec Ideal S4000x2 .f32) : FVec Ideal S4000x2 .f32 :=
  subf v10 (broadcastTo S4000x2 (shapeCast S4000x1 (blockRowMax v10) shapeCasts_S4000_S4000x1) broadcasts_S4000x1_S4000x2)

/-- The kernel's log-softmax of the rows of a block of logits, operation for operation. -/
def blockLogSoftmax (v10 : FVec Ideal S4000x2 .f32) : FVec Ideal S4000x2 .f32 :=
  subf (blockShifted v10) (broadcastTo S4000x2
    (log (shapeCast S4000x1
      (multiReduction .add [1] S4000 (exp (blockShifted v10)) 0x00000000#32 reduces_S4000x2_S4000 (.inl rfl) rfl)
      shapeCasts_S4000_S4000x1))
    broadcasts_S4000x1_S4000x2)

/-- The kernel's row maximum at row p is the row's maximum. -/
theorem blockRowMax_apply (v10 : FVec Ideal S4000x2 .f32) (p : Fin 4000) :
    blockRowMax v10 (ix1 p) = rowMax (fun k => v10 (ix2 p k)) := by
  unfold blockRowMax rowMax
  rw [maximumf_apply, broadcast_apply, Ideal.ofBits_def]
  exact congrArg (max (Ideal.ofBits .f32 0xFF800000#32)) (multiReduction_max_row v10 _ _ _ _ p)

/-- The shifted block at (p, q) is the logit minus its row's maximum. -/
theorem blockShifted_apply (v10 : FVec Ideal S4000x2 .f32) (p : Fin 4000) (q : Fin 2) :
    blockShifted v10 (ix2 p q) = v10 (ix2 p q) - rowMax (fun k => v10 (ix2 p k)) := by
  unfold blockShifted
  rw [subf_apply, broadcastTo_col_apply, shapeCast_vec_col_apply, blockRowMax_apply]

/-- The kernel's log-softmax at (p, q) is the log-softmax of row p at entry q. -/
theorem blockLogSoftmax_apply (v10 : FVec Ideal S4000x2 .f32) (p : Fin 4000) (q : Fin 2) :
    blockLogSoftmax v10 (ix2 p q) = rowLogSoftmax (fun k => v10 (ix2 p k)) q := by
  unfold blockLogSoftmax rowLogSoftmax
  rw [subf_apply, blockShifted_apply, broadcastTo_col_apply, log_apply, shapeCast_vec_col_apply]
  refine congrArg (fun s => (v10 (ix2 p q) - rowMax (fun k => v10 (ix2 p k))) - Ideal.log s) ?_
  refine (multiReduction_add_row (exp (blockShifted v10)) _ _ _ _ p).trans ?_
  simp only [exp_apply, blockShifted_apply]

/-! ## The host's side: the array [100000, 2] of logits -/

/-- The host's row maxima of the array of logits: the maximum over the columns from −∞, then against −∞. -/
def hostRowMax (z : FVec Ideal Cert.ReferenceIdeal.S100000x2 .f32) : FVec Ideal Cert.ReferenceIdeal.S100000 .f32 :=
  maximumf (broadcastInDim Cert.ReferenceIdeal.S100000 ![] Cert.ReferenceIdeal.Gen.bcast_S_S100000
      (constant (F := Ideal) Cert.ReferenceIdeal.S_ .f32 0xFF800000#32))
    (Host.reduce FloatOps.maximumf z (constant (F := Ideal) Cert.ReferenceIdeal.S_ .f32 0xFF800000#32)
      Cert.ReferenceIdeal.Gen.reducesTo_S100000x2_S100000_d1 Cert.ReferenceIdeal.Gen.h_S_)

/-- The array of logits minus its row maxima, laid along the rows. -/
def hostShifted (z : FVec Ideal Cert.ReferenceIdeal.S100000x2 .f32) : FVec Ideal Cert.ReferenceIdeal.S100000x2 .f32 :=
  subf z (broadcastInDim Cert.ReferenceIdeal.S100000x2 ![0, 1] Cert.ReferenceIdeal.Gen.bcast_S100000x1_S100000x2_0_1
    (broadcastInDim Cert.ReferenceIdeal.S100000x1 ![0] Cert.ReferenceIdeal.Gen.bcast_S100000_S100000x1_0 (hostRowMax z)))

/-- The host's log-softmax, its shifted logits named. -/
theorem logSoftmaxRows_eq (z : FVec Ideal Cert.ReferenceIdeal.S100000x2 .f32) :
    Cert.Spec.logSoftmaxRows z = subf (hostShifted z)
      (broadcastInDim Cert.ReferenceIdeal.S100000x2 ![0, 1] Cert.ReferenceIdeal.Gen.bcast_S100000x1_S100000x2_0_1
        (Host.log (broadcastInDim Cert.ReferenceIdeal.S100000x1 ![0] Cert.ReferenceIdeal.Gen.bcast_S100000_S100000x1_0
          (Host.reduceAdd (Host.exp (hostShifted z)) (constant (F := Ideal) Cert.ReferenceIdeal.S_ .f32 0x00000000#32)
            Cert.ReferenceIdeal.Gen.reducesTo_S100000x2_S100000_d1 Cert.ReferenceIdeal.Gen.h_S_)))) := rfl

/-- The array [100000, 2] reduces over its columns to [100000]. -/
theorem reduces_cols : Cert.ReferenceIdeal.S100000x2.Reduces [1] Cert.ReferenceIdeal.S100000 := by decide

/-- The host's row maximum at row r is the row's maximum. -/
theorem hostRowMax_apply (z : FVec Ideal Cert.ReferenceIdeal.S100000x2 .f32) (r : Fin 100000) :
    hostRowMax z (ix1 r) = rowMax (fun k => z (ix2 r k)) := by
  unfold hostRowMax rowMax
  rw [maximumf_apply, broadcastInDim_scalar_apply, hostReduce_max_row z _ _ reduces_cols _ r]
  simp only [constant_apply]

/-- The host's shifted array at (r, q) is the logit minus its row's maximum. -/
theorem hostShifted_apply (z : FVec Ideal Cert.ReferenceIdeal.S100000x2 .f32) (r : Fin 100000) (q : Fin 2) :
    hostShifted z (ix2 r q) = z (ix2 r q) - rowMax (fun k => z (ix2 r k)) := by
  unfold hostShifted
  rw [subf_apply, broadcastInDim_col_apply, broadcastInDim_vec_col_apply, hostRowMax_apply]

/-- The host's log-softmax at (r, q) is the log-softmax of row r at entry q. -/
theorem logSoftmaxRows_apply (z : FVec Ideal Cert.ReferenceIdeal.S100000x2 .f32) (r : Fin 100000) (q : Fin 2) :
    Cert.Spec.logSoftmaxRows z (ix2 r q) = rowLogSoftmax (fun k => z (ix2 r k)) q := by
  rw [logSoftmaxRows_eq]
  unfold rowLogSoftmax
  rw [subf_apply, hostShifted_apply, broadcastInDim_col_apply, hostLog_apply, broadcastInDim_vec_col_apply,
    hostReduceAdd_row (Host.exp (hostShifted z)) _ _ reduces_cols _ r, constant_apply, Ideal.ofBits_zero_f32, zero_add]
  simp only [hostExp_apply, hostShifted_apply]

/-! ## The logits: features times weights plus the bias row -/

/-- The kernel's logits of a block: its rows of features [4000, 128] times the weights [128, 2] (both operands
    passed through the truncation to bf16, the identity at the ideal values), plus the bias row on every row. -/
def blockLogits (v0 : Vec Ideal S4000x128 .f32) (v3 : Vec Ideal S128x2 .f32) (v6 : Vec Ideal S1x2 .f32) :
    FVec Ideal S4000x2 .f32 :=
  addf (matmul dot_S4000x128_S128x2_S4000x2_1_0_0_1_n_n none
      (truncf .bf16 (shapeCast S4000x128 v0 shapeCasts_S4000x128_S4000x128) bitsLt_bf16_f32)
      (truncf .bf16 v3 bitsLt_bf16_f32) (constant S4000x2 .f32 0x00000000#32))
    (broadcastTo S4000x2 (shapeCast S1x2 (shapeCast S1x2 v6 shapeCasts_S1x2_S1x2) shapeCasts_S1x2_S1x2)
      broadcasts_S1x2_S4000x2)

/-- The classifier kernel's payload is the log-softmax of the rows of its block of logits. -/
theorem k6_pay1_eq (v0 : Vec Ideal S4000x128 .f32) (v3 : Vec Ideal S128x2 .f32) (v6 : Vec Ideal S1x2 .f32) :
    k6_pay1 (F := Ideal) v0 v3 v6 = blockLogSoftmax (blockLogits v0 v3 v6) := rfl

/-- The kernel's logit at (p, q) of a block is the host's logit at (r, q), when row p of the block of features is
    row r of the array of features and the block's weights and bias row are the arrays'. -/
theorem blockLogits_apply (x0 : Vec Ideal S4000x128 .f32) (x1 : Vec Ideal S128x2 .f32) (x2 : Vec Ideal S1x2 .f32)
    (h : FVec Ideal Cert.ReferenceIdeal.S100000x128 .f32) (w : FVec Ideal Cert.ReferenceIdeal.S128x2 .f32)
    (row : FVec Ideal Cert.ReferenceIdeal.S1x2 .f32) (p : Fin 4000) (r : Fin 100000) (q : Fin 2)
    (hx : ∀ k : Fin 128, x0 (ix2 p k) = h (ix2 r k)) (hw : ∀ k : Fin 128, x1 (ix2 k q) = w (ix2 k q))
    (hb : x2 (ix2 0 q) = row (ix2 0 q)) :
    blockLogits x0 x1 x2 (ix2 p q)
      = (addf (Host.dotGeneral Cert.ReferenceIdeal.dot_S100000x128_S128x2_S100000x2_1_0_0_1_n_n none h w)
          (broadcastInDim Cert.ReferenceIdeal.S100000x2 ![0, 1] Cert.ReferenceIdeal.Gen.bcast_S1x2_S100000x2_0_1 row)) (ix2 r q) := by
  refine congrArg₂ (· + ·) ?_ ?_
  · exact Cert.Lib.RowBlocks.matmul_rows_eq_dotGeneral none none h w _ _ p r q
      (fun k => (congrFun (shapeCast_self x0 shapeCasts_S4000x128_S4000x128) (ix2 p k)).trans (hx k)) hw
  · refine (Cert.Lib.Rows.broadcastTo_row_apply _ _ p q).trans ?_
    rw [shapeCast_self, shapeCast_self]
    exact hb.trans (broadcastInDim_apply ![0, 1] Cert.ReferenceIdeal.Gen.bcast_S1x2_S100000x2_0_1 row (ix2 r q) (ix2 0 q) (fun a => by
      match a with
      | ⟨0, _⟩ => show (0 : Nat) = if (1 : Nat) = 1 then 0 else r.val; rw [if_pos rfl]
      | ⟨1, _⟩ => show q.val = if (2 : Nat) = 1 then 0 else q.val; rw [if_neg (by decide)])).symm

/-- THE PAYLOAD AT AN INDEX: the classifier kernel's payload at (p, q) of a block is the classifier of the whole
    arrays at (r, q), when row p of the block of features is row r of the array of features and the block's weights
    and bias row are the arrays'. -/
theorem k6_pay1_apply (x0 : Vec Ideal S4000x128 .f32) (x1 : Vec Ideal S128x2 .f32) (x2 : Vec Ideal S1x2 .f32)
    (h : FVec Ideal Cert.ReferenceIdeal.S100000x128 .f32) (w : FVec Ideal Cert.ReferenceIdeal.S128x2 .f32)
    (row : FVec Ideal Cert.ReferenceIdeal.S1x2 .f32) (p : Fin 4000) (r : Fin 100000) (q : Fin 2)
    (hx : ∀ k : Fin 128, x0 (ix2 p k) = h (ix2 r k)) (hw : ∀ (k : Fin 128) (c : Fin 2), x1 (ix2 k c) = w (ix2 k c))
    (hb : ∀ c : Fin 2, x2 (ix2 0 c) = row (ix2 0 c)) :
    k6_pay1 (F := Ideal) x0 x1 x2 (ix2 p q) = Cert.Spec.classifyRows h w row (ix2 r q) := by
  rw [k6_pay1_eq, blockLogSoftmax_apply]
  unfold Cert.Spec.classifyRows
  rw [logSoftmaxRows_apply]
  exact congrArg (rowLogSoftmax · q) (funext fun k => blockLogits_apply x0 x1 x2 h w row p r k hx (fun k' => hw k' k) (hb k))

end Cert.KernelIdeal.RegionValue.Classify

end
-- ==== Proof.Classify6.lean ====
/-
  The classifier's region: what its output array holds afterwards.

  The region runs the classifier kernel at 25 points; point t reads rows 4000·t … 4000·t + 3999 of the features
  [100000, 128], the whole weights [128, 2] and the whole bias row [1, 2], and writes rows 4000·t … 4000·t + 3999 of
  the output [100000, 2].  At the ideal values what point t writes back is block t of ONE whole-array function of the
  region's input arrays — the shared classifier: features times weights plus the bias row, then the logarithm of the
  softmax of each row — because the kernel's payload at a block's entry (p, q) is that function's entry at
  (4000·t + p, q): a block's coordinate in the array is always block index × block size + the coordinate inside
  the block, and the index maps' values are decided once over the grid.  Every row r lies in the block of point
  r / 4000 and every point writes its block back, so the blocks cover the array and the array ends holding the
  function.  Whatever the buffers hold when the region is entered: the statement is for arbitrary entry contents.
-/
import proofs.«100644_j4544075399710_1_alg».proof.Proof.Classify6Row
import proofs.«100644_j4544075399710_1_alg».proof.Proof.Gen.KernelIdeal.Frame
import Idealize.ShloMosaic.Lib.Pipeline.Value

noncomputable section

namespace Cert.KernelIdeal.RegionValue

open Idealize.ShloMosaic Idealize.ShloMosaic.ValueIdx Idealize.ShloMosaic.TcCoe Cert.KernelIdeal Cert.KernelIdeal.Gen
open Idealize.ShloMosaic.Pipeline (Dat)
open Cert.KernelIdeal.RegionValue.Classify

/-- The zero offsets of a whole-buffer access, as a constant function. -/
theorem zero_offsets6 : (![0, 0] : Fin 2 → Nat) = fun _ => 0 := funext fun a => by fin_cases a <;> rfl

/-- The printed index maps of the classifier's windows, decided over the grid: the blocks of features and of the
    output are at row block t, the weights and the bias row are whole. -/
theorem index_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

variable (V : (c : Dev nD) → (b : Ref sig .tc) → Buf (Elt Ideal) ((c : Thread nD τ).loc b))

/-- WHAT POINT t WRITES BACK is block t of the classifier of the arrays as the region finds them. -/
theorem flushed6_eq (c : Dev nD) (t : Fin cfg6.N) :
    (dat6 (F := Ideal) V c).flushed 3 t
      = ((cfg6.win 3).blk t).view.read (Elt Ideal) (Cert.Spec.classifyRows (V c main_v87) (V c main_arg8) (V c main_v88)) := by
  show (cfg6.win 3).cut (grid6.coords t) ((dat6 V c).after 3 t) = _
  rw [after6_3]
  unfold out6_3
  rw [View.canon_unit_zero zero_offsets6]
  simp only [View.ld_unit_zero (S := S4000x128) zero_offsets6, View.ld_unit_zero (S := S128x2) zero_offsets6,
    View.ld_unit_zero (S := S1x2) zero_offsets6]
  obtain ⟨e00, e01, e10, e11, e20, e21, e30, e31⟩ := index_facts6 t
  have hN : t.val < 25 := lt_of_lt_of_eq t.isLt N_6
  funext j
  have hp : (j 0).val < 4000 := (j 0).isLt
  have hq : (j 1).val < 2 := (j 1).isLt
  have hr : t.val * 4000 + (j 0).val < 100000 := by omega
  have hidx : ((cfg6.win 3).blk t).view.emb j = ix2 (⟨t.val * 4000 + (j 0).val, hr⟩ : Fin 100000) (j 1) := by
    funext a; apply Fin.ext
    match a with
    | ⟨0, _⟩ => show win6_3.index t (0 : Fin 2) * 4000 + 1 * (j 0).val = t.val * 4000 + (j 0).val; rw [e30]; omega
    | ⟨1, _⟩ => show win6_3.index t (1 : Fin 2) * 2 + 1 * (j 1).val = (j 1).val; rw [e31]; omega
  show k6_pay1 (F := Ideal) (iblk6 V c 0 t) (iblk6 V c 1 t) (iblk6 V c 2 t) j
    = Cert.Spec.classifyRows (V c main_v87) (V c main_arg8) (V c main_v88) (((cfg6.win 3).blk t).view.emb j)
  rw [hidx]
  refine (congrArg (k6_pay1 (F := Ideal) (iblk6 V c 0 t) (iblk6 V c 1 t) (iblk6 V c 2 t)) (eq_ix2 (n0 := 4000) (n1 := 2) j)).trans ?_
  refine k6_pay1_apply _ _ _ _ _ _ (j 0) ⟨_, hr⟩ (j 1) ?_ ?_ ?_
  · intro k
    show V c main_v87 (((cfg6.win 0).blk t).view.emb (ix2 (j 0) k)) = V c main_v87 (ix2 ⟨_, hr⟩ k)
    refine congrArg (V c main_v87) (funext fun a => Fin.ext ?_)
    match a with
    | ⟨0, _⟩ => show win6_0.index t (0 : Fin 2) * 4000 + 1 * (j 0).val = t.val * 4000 + (j 0).val; rw [e00]; omega
    | ⟨1, _⟩ => show win6_0.index t (1 : Fin 2) * 128 + 1 * k.val = k.val; rw [e01]; omega
  · intro k c'
    show V c main_arg8 (((cfg6.win 1).blk t).view.emb (ix2 k c')) = V c main_arg8 (ix2 k c')
    refine congrArg (V c main_arg8) (funext fun a => Fin.ext ?_)
    match a with
    | ⟨0, _⟩ => show win6_1.index t (0 : Fin 2) * 128 + 1 * k.val = k.val; rw [e10]; omega
    | ⟨1, _⟩ => show win6_1.index t (1 : Fin 2) * 2 + 1 * c'.val = c'.val; rw [e11]; omega
  · intro c'
    show V c main_v88 (((cfg6.win 2).blk t).view.emb (ix2 0 c')) = V c main_v88 (ix2 0 c')
    refine congrArg (V c main_v88) (funext fun a => Fin.ext ?_)
    match a with
    | ⟨0, _⟩ => show win6_2.index t (0 : Fin 2) * 1 + 1 * 0 = 0; rw [e20]
    | ⟨1, _⟩ => show win6_2.index t (1 : Fin 2) * 2 + 1 * c'.val = c'.val; rw [e21]; omega

/-- An index of the output array is in point t's block iff each coordinate is in the block's range on its axis. -/
theorem mem_blk6 (t : Fin cfg6.N) (i : S100000x2.Idx) :
    i ∈ ((cfg6.win 3).blk t).view.set ↔ ∀ a : Fin 2, win6_3.index t a * S4000x2.size a ≤ (i a).val
      ∧ (i a).val < win6_3.index t a * S4000x2.size a + S4000x2.size a := by
  show i ∈ ((View.whole main_v89).slice (win6_3.rect t)).set ↔ _
  rw [View.set_slice_whole, Rect.mem_set_unit]
  exact Iff.rfl

/-- Every row of the output array is in the block of the point that is the row's number divided by 4000, and every
    point writes its block back. -/
theorem cover6 (i : S100000x2.Idx) :
    ∃ t : Fin cfg6.N, (cfg6.win 3).flush t = true ∧ i ∈ ((cfg6.win 3).blk t).view.set := by
  have hi0 : (i 0).val < 100000 := (i 0).isLt
  have hi1 : (i 1).val < 2 := (i 1).isLt
  have ht : (i 0).val / 4000 < cfg6.N := by rw [show cfg6.N = 25 from N_6]; omega
  obtain ⟨-, -, -, -, -, -, e30, e31⟩ := index_facts6 ⟨(i 0).val / 4000, ht⟩
  refine ⟨⟨(i 0).val / 4000, ht⟩, flush6_3 _, ?_⟩
  rw [mem_blk6]
  intro a
  match a with
  | ⟨0, _⟩ =>
    show win6_3.index ⟨(i 0).val / 4000, ht⟩ (0 : Fin 2) * 4000 ≤ (i 0).val
      ∧ (i 0).val < win6_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win6_3.index ⟨(i 0).val / 4000, ht⟩ (1 : Fin 2) * 2 ≤ (i 1).val
      ∧ (i 1).val < win6_3.index ⟨(i 0).val / 4000, ht⟩ (1 : Fin 2) * 2 + 2
    rw [e31]; omega

/-- THE OUTPUT ARRAY after the classifier's region: the classifier of the features, weights and bias row that the
    region finds in its input arrays — features times weights plus the bias row, then the logarithm of the softmax
    of each row. -/
theorem classify6 (c : Dev nD) :
    (dat6 (F := Ideal) V c).arrAt 3 cfg6.N = Cert.Spec.classifyRows (V c main_v87) (V c main_arg8) (V c main_v88) :=
  (dat6 (F := Ideal) V c).arrAt_eq_of_cover 3 (Cert.Spec.classifyRows (V c main_v87) (V c main_arg8) (V c main_v88))
    (fun t _ => flushed6_eq V c t) cover6

end Cert.KernelIdeal.RegionValue

end
-- ==== Proof.KernelValue.lean ====
/-
  The kernel program's result is the network of the shared whole-array operations.

  Read back through the segments: the last region leaves the classifier of the third layer's features; each
  layer's features are the bias row added to the aggregation and clamped at zero (a region), the aggregation
  is the host stretch before it applied to the projected features, and the projected features are a matrix
  product (a region) of the layer's input.  The buffers computed once from the edge list and the argument
  arrays are, at each place they are read, what the first stretch or the launch left.  The bias vectors enter
  as rows made by a reshape.
-/
import proofs.«100644_j4544075399710_1_alg».proof.Proof.HostSide
import proofs.«100644_j4544075399710_1_alg».proof.Proof.Matmul0
import proofs.«100644_j4544075399710_1_alg».proof.Proof.Matmul2
import proofs.«100644_j4544075399710_1_alg».proof.Proof.Matmul4
import proofs.«100644_j4544075399710_1_alg».proof.Proof.BiasRelu1
import proofs.«100644_j4544075399710_1_alg».proof.Proof.BiasRelu3
import proofs.«100644_j4544075399710_1_alg».proof.Proof.BiasRelu5
import proofs.«100644_j4544075399710_1_alg».proof.Proof.Classify6

set_option maxRecDepth 16384

noncomputable section

namespace Cert.KernelIdeal.KernelValue

open Cert.KernelIdeal Cert.KernelIdeal.Gen Cert.KernelIdeal.HostSide Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-- One layer's aggregation, from the edge list and the projected features. -/
abbrev agg (ei : Cert.Spec.IVec Cert.ReferenceIdeal.S2x1600000) (xw : FVec Ideal Cert.ReferenceIdeal.S100000x128 .f32) :
    FVec Ideal Cert.ReferenceIdeal.S100000x128 .f32 :=
  Cert.Spec.aggOf (Cert.Spec.srcOf ei) (Cert.Spec.dstOf ei)
    (Cert.Spec.normOf (Cert.Spec.srcOf ei) (Cert.Spec.dstOf ei) (Cert.Spec.degOf (Cert.Spec.dstOf ei)))
    (Cert.Spec.selfOf (Cert.Spec.degOf (Cert.Spec.dstOf ei))) xw

/-- The first layer's projected features: the first region's output array. -/
theorem xw1 : W2 m ρ c (Proc.devRef .tc main_v28)
    = Host.dotGeneral (F := Ideal) (φ₁ := .f32) (φ₂ := .f32) Cert.ReferenceIdeal.dot_S100000x256_S256x128_S100000x128_1_0_0_1_n_n none (m ((c : Thread nD τ).loc main_arg0)) (m ((c : Thread nD τ).loc main_arg2)) := by
  have h := (W2_arr m ρ c 2).trans (matmul0 (V1 m ρ) c)
  rw [show V1 m ρ c main_arg0 = (m ((c : Thread nD τ).loc main_arg0)) from W1_arg0 m ρ c, show V1 m ρ c main_arg2 = (m ((c : Thread nD τ).loc main_arg2)) from W1_arg2 m ρ c] at h
  exact h

/-- The first layer's features. -/
theorem h1 : W4 m ρ c (Proc.devRef .tc main_v47)
    = Cert.Spec.reluAddRow (agg (m ((c : Thread nD τ).loc main_arg1)) (Host.dotGeneral (F := Ideal) (φ₁ := .f32) (φ₂ := .f32) Cert.ReferenceIdeal.dot_S100000x256_S256x128_S100000x128_1_0_0_1_n_n none (m ((c : Thread nD τ).loc main_arg0)) (m ((c : Thread nD τ).loc main_arg2))))
        (shapeCast S1x128 (m ((c : Thread nD τ).loc main_arg3)) shapeCasts_S128_S1x128) := by
  have h := (W4_arr m ρ c 2).trans (biasRelu1 (V3 m ρ) c)
  rw [show V3 m ρ c main_v45 = _ from W3_v45 m ρ c, show V3 m ρ c main_v46 = _ from W3_v46 m ρ c,
    W2_v1, W2_v3, W2_v25, W2_v27, xw1, W2_arg3] at h
  exact h

/-- The second layer's projected features. -/
theorem xw2 : W5 m ρ c (Proc.devRef .tc main_v48)
    = Host.dotGeneral (F := Ideal) (φ₁ := .f32) (φ₂ := .f32) Cert.ReferenceIdeal.dot_S100000x128_S128x128_S100000x128_1_0_0_1_n_n none
        (W4 m ρ c (Proc.devRef .tc main_v47)) (m ((c : Thread nD τ).loc main_arg4)) := by
  have h := (W5_arr m ρ c 2).trans (matmul2 (V4 m ρ) c)
  rw [show V4 m ρ c main_arg4 = (m ((c : Thread nD τ).loc main_arg4)) from W4_arg4 m ρ c] at h
  exact h

/-- The second layer's features, from the first layer's. -/
theorem h2 : W7 m ρ c (Proc.devRef .tc main_v67)
    = Cert.Spec.reluAddRow (agg (m ((c : Thread nD τ).loc main_arg1)) (Host.dotGeneral (F := Ideal) (φ₁ := .f32) (φ₂ := .f32) Cert.ReferenceIdeal.dot_S100000x128_S128x128_S100000x128_1_0_0_1_n_n none
        (W4 m ρ c (Proc.devRef .tc main_v47)) (m ((c : Thread nD τ).loc main_arg4)))) (shapeCast S1x128 (m ((c : Thread nD τ).loc main_arg5)) shapeCasts_S128_S1x128) := by
  have h := (W7_arr m ρ c 2).trans (biasRelu3 (V6 m ρ) c)
  rw [show V6 m ρ c main_v65 = _ from W6_v65 m ρ c, show V6 m ρ c main_v66 = _ from W6_v66 m ρ c,
    W5_v1, W5_v3, W5_v25, W5_v27, xw2, W5_arg5] at h
  exact h

/-- The third layer's projected features. -/
theorem xw3 : W8 m ρ c (Proc.devRef .tc main_v68)
    = Host.dotGeneral (F := Ideal) (φ₁ := .f32) (φ₂ := .f32) Cert.ReferenceIdeal.dot_S100000x128_S128x128_S100000x128_1_0_0_1_n_n none
        (W7 m ρ c (Proc.devRef .tc main_v67)) (m ((c : Thread nD τ).loc main_arg6)) := by
  have h := (W8_arr m ρ c 2).trans (matmul4 (V7 m ρ) c)
  rw [show V7 m ρ c main_arg6 = (m ((c : Thread nD τ).loc main_arg6)) from W7_arg6 m ρ c] at h
  exact h

/-- The third layer's features, from the second layer's. -/
theorem h3 : W10 m ρ c (Proc.devRef .tc main_v87)
    = Cert.Spec.reluAddRow (agg (m ((c : Thread nD τ).loc main_arg1)) (Host.dotGeneral (F := Ideal) (φ₁ := .f32) (φ₂ := .f32) Cert.ReferenceIdeal.dot_S100000x128_S128x128_S100000x128_1_0_0_1_n_n none
        (W7 m ρ c (Proc.devRef .tc main_v67)) (m ((c : Thread nD τ).loc main_arg6)))) (shapeCast S1x128 (m ((c : Thread nD τ).loc main_arg7)) shapeCasts_S128_S1x128) := by
  have h := (W10_arr m ρ c 2).trans (biasRelu5 (V9 m ρ) c)
  rw [show V9 m ρ c main_v85 = _ from W9_v85 m ρ c, show V9 m ρ c main_v86 = _ from W9_v86 m ρ c,
    W8_v1, W8_v3, W8_v25, W8_v27, xw3, W8_arg7] at h
  exact h

/-- The result array: the classifier of the third layer's features. -/
theorem out : W12 m ρ c (Proc.devRef .tc main_v89)
    = Cert.Spec.classifyRows (W10 m ρ c (Proc.devRef .tc main_v87)) (m ((c : Thread nD τ).loc main_arg8)) (shapeCast S1x2 (m ((c : Thread nD τ).loc main_arg9)) shapeCasts_S2_S1x2) := by
  have h := (W12_arr m ρ c 3).trans (classify6 (V11 m ρ) c)
  rw [show V11 m ρ c main_v87 = _ from W11_v87 m ρ c, show V11 m ρ c main_arg8 = (m ((c : Thread nD τ).loc main_arg8)) from W11_arg8 m ρ c,
    show V11 m ρ c main_v88 = _ from W11_v88 m ρ c, W10_arg9] at h
  exact h

/-- The kernel program's result buffer at the last boundary is the network of the launch contents of the
    arguments, the bias vectors as reshaped rows. -/
theorem result : W12 m ρ c (Proc.devRef .tc main_v89)
    = Cert.Spec.network (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg4)) (shapeCast S1x128 (m ((c : Thread nD τ).loc main_arg5)) shapeCasts_S128_S1x128)
        (m ((c : Thread nD τ).loc main_arg6)) (shapeCast S1x128 (m ((c : Thread nD τ).loc main_arg7)) shapeCasts_S128_S1x128) (m ((c : Thread nD τ).loc main_arg8)) (shapeCast S1x2 (m ((c : Thread nD τ).loc main_arg9)) shapeCasts_S2_S1x2) := by
  rw [out, h3, h2, h1]
  rfl

end Cert.KernelIdeal.KernelValue

end
-- ==== Proof.RefSide.lean ====
/-
  The reference program's result is the network of the shared whole-array operations.

  The reference is one straight line of 200 host operations, and its run ends with every buffer at the fold of
  the operations' results over the launch contents.  The line is read in five consecutive stretches: the edges'
  source and destination nodes; three layers, each of which projects the features it is given, computes the
  degrees and the edge weights from the destination and source nodes, aggregates, adds its bias as a row
  broadcast onto axis 1 and clamps at zero; and the classifier with the logarithm of the softmax.  Each stretch
  reads, besides argument arrays, only what an earlier stretch wrote and no later stretch overwrites, so the
  result is the composition of the five readings: the network of the arguments.
-/
import proofs.«100644_j4544075399710_1_alg».proof.Proof.RefRun
import proofs.«100644_j4544075399710_1_alg».proof.Proof.Spec

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

/-- Closes "no operation of this stretch writes the buffer": the stretch's operations are listed, each one's
    written buffer is a single named buffer, and the names differ. -/
macro "untouched " ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Two lines run one after the other fold as the second over the first's fold. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- A value carried to a buffer's own type and back again is the value: the two transports are along one
    equation between the types, read in its two directions. -/
theorem ofBuf_toBuf {T : BufTy} {Val : EltTy → Type} (x : TRef sig T) (v : T.Contents Val) : x.ofBuf (x.toBuf v) = v := by
  obtain ⟨r, h, h2, h3⟩ := x
  subst h
  rfl

variable (V : Valuation τ sig (Elt Ideal))

/-- The contents after each stretch, from the contents it is entered with. -/
def atA : Valuation τ sig (Elt Ideal) := after opsA V
@[inherit_doc atA] def atB : Valuation τ sig (Elt Ideal) := after opsB V
@[inherit_doc atA] def atC : Valuation τ sig (Elt Ideal) := after opsC V
@[inherit_doc atA] def atD : Valuation τ sig (Elt Ideal) := after opsD V
@[inherit_doc atA] def atE : Valuation τ sig (Elt Ideal) := after opsE V

/-- The whole line is its five stretches, one after the other. -/
theorem after_ops : after ops V = atE (atD (atC (atB (atA V)))) := by
  rw [ops_split, after_append, after_append, after_append, after_append]
  rfl

/-! ## Buffers a stretch does not write -/

theorem atA_arg0 : atA V (Proc.devRef .tc main_arg0) = V (Proc.devRef .tc main_arg0) :=
  StableHlo.after_of_forall_not_mem (b := Proc.devRef .tc main_arg0) _ _ (by untouched opsA)
theorem atA_arg2 : atA V (Proc.devRef .tc main_arg2) = V (Proc.devRef .tc main_arg2) :=
  StableHlo.after_of_forall_not_mem (b := Proc.devRef .tc main_arg2) _ _ (by untouched opsA)
theorem atA_arg3 : atA V (Proc.devRef .tc main_arg3) = V (Proc.devRef .tc main_arg3) :=
  StableHlo.after_of_forall_not_mem (b := Proc.devRef .tc main_arg3) _ _ (by untouched opsA)
theorem atA_arg4 : atA V (Proc.devRef .tc main_arg4) = V (Proc.devRef .tc main_arg4) :=
  StableHlo.after_of_forall_not_mem (b := Proc.devRef .tc main_arg4) _ _ (by untouched opsA)
theorem atA_arg5 : atA V (Proc.devRef .tc main_arg5) = V (Proc.devRef .tc main_arg5) :=
  StableHlo.after_of_forall_not_mem (b := Proc.devRef .tc main_arg5) _ _ (by untouched opsA)
theorem atA_arg6 : atA V (Proc.devRef .tc main_arg6) = V (Proc.devRef .tc main_arg6) :=
  StableHlo.after_of_forall_not_mem (b := Proc.devRef .tc main_arg6) _ _ (by untouched opsA)
theorem atA_arg7 : atA V (Proc.devRef .tc main_arg7) = V (Proc.devRef .tc main_arg7) :=
  StableHlo.after_of_forall_not_mem (b := Proc.devRef .tc main_arg7) _ _ (by untouched opsA)
theorem atA_arg8 : atA V (Proc.devRef .tc main_arg8) = V (Proc.devRef .tc main_arg8) :=
  StableHlo.after_of_forall_not_mem (b := Proc.devRef .tc main_arg8) _ _ (by untouched opsA)
theorem atA_arg9 : atA V (Proc.devRef .tc main_arg9) = V (Proc.devRef .tc main_arg9) :=
  StableHlo.after_of_forall_not_mem (b := Proc.devRef .tc main_arg9) _ _ (by untouched opsA)
theorem atB_v1 : atB V (Proc.devRef .tc main_v1) = V (Proc.devRef .tc main_v1) :=
  StableHlo.after_of_forall_not_mem (b := Proc.devRef .tc main_v1) _ _ (by untouched opsB)
theorem atB_v3 : atB V (Proc.devRef .tc main_v3) = V (Proc.devRef .tc main_v3) :=
  StableHlo.after_of_forall_not_mem (b := Proc.devRef .tc main_v3) _ _ (by untouched opsB)
theorem atB_arg4 : atB V (Proc.devRef .tc main_arg4) = V (Proc.devRef .tc main_arg4) :=
  StableHlo.after_of_forall_not_mem (b := Proc.devRef .tc main_arg4) _ _ (by untouched opsB)
theorem atB_arg5 : atB V (Proc.devRef .tc main_arg5) = V (Proc.devRef .tc main_arg5) :=
  StableHlo.after_of_forall_not_mem (b := Proc.devRef .tc main_arg5) _ _ (by untouched opsB)
theorem atB_arg6 : atB V (Proc.devRef .tc main_arg6) = V (Proc.devRef .tc main_arg6) :=
  StableHlo.after_of_forall_not_mem (b := Proc.devRef .tc main_arg6) _ _ (by untouched opsB)
theorem atB_arg7 : atB V (Proc.devRef .tc main_arg7) = V (Proc.devRef .tc main_arg7) :=
  StableHlo.after_of_forall_not_mem (b := Proc.devRef .tc main_arg7) _ _ (by untouched opsB)
theorem atB_arg8 : atB V (Proc.devRef .tc main_arg8) = V (Proc.devRef .tc main_arg8) :=
  StableHlo.after_of_forall_not_mem (b := Proc.devRef .tc main_arg8) _ _ (by untouched opsB)
theorem atB_arg9 : atB V (Proc.devRef .tc main_arg9) = V (Proc.devRef .tc main_arg9) :=
  StableHlo.after_of_forall_not_mem (b := Proc.devRef .tc main_arg9) _ _ (by untouched opsB)
theorem atC_v1 : atC V (Proc.devRef .tc main_v1) = V (Proc.devRef .tc main_v1) :=
  StableHlo.after_of_forall_not_mem (b := Proc.devRef .tc main_v1) _ _ (by untouched opsC)
theorem atC_v3 : atC V (Proc.devRef .tc main_v3) = V (Proc.devRef .tc main_v3) :=
  StableHlo.after_of_forall_not_mem (b := Proc.devRef .tc main_v3) _ _ (by untouched opsC)
theorem atC_arg6 : atC V (Proc.devRef .tc main_arg6) = V (Proc.devRef .tc main_arg6) :=
  StableHlo.after_of_forall_not_mem (b := Proc.devRef .tc main_arg6) _ _ (by untouched opsC)
theorem atC_arg7 : atC V (Proc.devRef .tc main_arg7) = V (Proc.devRef .tc main_arg7) :=
  StableHlo.after_of_forall_not_mem (b := Proc.devRef .tc main_arg7) _ _ (by untouched opsC)
theorem atC_arg8 : atC V (Proc.devRef .tc main_arg8) = V (Proc.devRef .tc main_arg8) :=
  StableHlo.after_of_forall_not_mem (b := Proc.devRef .tc main_arg8) _ _ (by untouched opsC)
theorem atC_arg9 : atC V (Proc.devRef .tc main_arg9) = V (Proc.devRef .tc main_arg9) :=
  StableHlo.after_of_forall_not_mem (b := Proc.devRef .tc main_arg9) _ _ (by untouched opsC)
theorem atD_arg8 : atD V (Proc.devRef .tc main_arg8) = V (Proc.devRef .tc main_arg8) :=
  StableHlo.after_of_forall_not_mem (b := Proc.devRef .tc main_arg8) _ _ (by untouched opsD)
theorem atD_arg9 : atD V (Proc.devRef .tc main_arg9) = V (Proc.devRef .tc main_arg9) :=
  StableHlo.after_of_forall_not_mem (b := Proc.devRef .tc main_arg9) _ _ (by untouched opsD)

/-! ## What each stretch computes

The clamp at zero and the softmax are called functions, whose operations carry their values to the buffers'
own types and back; a value carried there and back is the value, and a single such transport is along an
equation between two spellings of one type, so it too is the identity. With the transports gone each stretch's
fold is, operation by operation, the shared whole-array term. -/

theorem atA_v1 : atA V (Proc.devRef .tc main_v1) = Cert.Spec.srcOf (V (Proc.devRef .tc main_arg1)) := by
  show after opsA V (Proc.devRef .tc main_v1) = _
  after_results_simp
  rfl
theorem atA_v3 : atA V (Proc.devRef .tc main_v3) = Cert.Spec.dstOf (V (Proc.devRef .tc main_arg1)) := by
  show after opsA V (Proc.devRef .tc main_v3) = _
  after_results_simp
  rfl

set_option maxHeartbeats 4000000 in
theorem atB_v49 : atB V (Proc.devRef .tc main_v49)
    = Cert.Spec.reluAddRow (Cert.Spec.aggOf (V (Proc.devRef .tc main_v1)) (V (Proc.devRef .tc main_v3))
        (Cert.Spec.normOf (V (Proc.devRef .tc main_v1)) (V (Proc.devRef .tc main_v3)) (Cert.Spec.degOf (V (Proc.devRef .tc main_v3))))
        (Cert.Spec.selfOf (Cert.Spec.degOf (V (Proc.devRef .tc main_v3))))
        (Host.dotGeneral (F := Ideal) (φ₁ := .f32) (φ₂ := .f32) dot_S100000x256_S256x128_S100000x128_1_0_0_1_n_n none (V (Proc.devRef .tc main_arg0)) (V (Proc.devRef .tc main_arg2))))
      (broadcastInDim S1x128 ![1] bcast_S128_S1x128_1 (V (Proc.devRef .tc main_arg3))) := by
  show after opsB V (Proc.devRef .tc main_v49) = _
  after_results_simp
  simp only [ofBuf_toBuf]
  unfold Cert.Spec.reluAddRow
  refine (cast_eq _ _).trans ?_
  refine congrArg₂ _ ?_ rfl
  exact cast_eq _ _

set_option maxHeartbeats 4000000 in
theorem atC_v95 : atC V (Proc.devRef .tc main_v95)
    = Cert.Spec.reluAddRow (Cert.Spec.aggOf (V (Proc.devRef .tc main_v1)) (V (Proc.devRef .tc main_v3))
        (Cert.Spec.normOf (V (Proc.devRef .tc main_v1)) (V (Proc.devRef .tc main_v3)) (Cert.Spec.degOf (V (Proc.devRef .tc main_v3))))
        (Cert.Spec.selfOf (Cert.Spec.degOf (V (Proc.devRef .tc main_v3))))
        (Host.dotGeneral (F := Ideal) (φ₁ := .f32) (φ₂ := .f32) dot_S100000x128_S128x128_S100000x128_1_0_0_1_n_n none (V (Proc.devRef .tc main_v49)) (V (Proc.devRef .tc main_arg4))))
      (broadcastInDim S1x128 ![1] bcast_S128_S1x128_1 (V (Proc.devRef .tc main_arg5))) := by
  show after opsC V (Proc.devRef .tc main_v95) = _
  after_results_simp
  simp only [ofBuf_toBuf]
  unfold Cert.Spec.reluAddRow
  refine (cast_eq _ _).trans ?_
  refine congrArg₂ _ ?_ rfl
  exact cast_eq _ _

set_option maxHeartbeats 4000000 in
theorem atD_v141 : atD V (Proc.devRef .tc main_v141)
    = Cert.Spec.reluAddRow (Cert.Spec.aggOf (V (Proc.devRef .tc main_v1)) (V (Proc.devRef .tc main_v3))
        (Cert.Spec.normOf (V (Proc.devRef .tc main_v1)) (V (Proc.devRef .tc main_v3)) (Cert.Spec.degOf (V (Proc.devRef .tc main_v3))))
        (Cert.Spec.selfOf (Cert.Spec.degOf (V (Proc.devRef .tc main_v3))))
        (Host.dotGeneral (F := Ideal) (φ₁ := .f32) (φ₂ := .f32) dot_S100000x128_S128x128_S100000x128_1_0_0_1_n_n none (V (Proc.devRef .tc main_v95)) (V (Proc.devRef .tc main_arg6))))
      (broadcastInDim S1x128 ![1] bcast_S128_S1x128_1 (V (Proc.devRef .tc main_arg7))) := by
  show after opsD V (Proc.devRef .tc main_v141) = _
  after_results_simp
  simp only [ofBuf_toBuf]
  unfold Cert.Spec.reluAddRow
  refine (cast_eq _ _).trans ?_
  refine congrArg₂ _ ?_ rfl
  exact cast_eq _ _

set_option maxHeartbeats 4000000 in
theorem atE_v146 : atE V (Proc.devRef .tc main_v146)
    = Cert.Spec.classifyRows (V (Proc.devRef .tc main_v141)) (V (Proc.devRef .tc main_arg8))
        (broadcastInDim S1x2 ![1] bcast_S2_S1x2_1 (V (Proc.devRef .tc main_arg9))) := by
  show after opsE V (Proc.devRef .tc main_v146) = _
  after_results_simp
  simp only [ofBuf_toBuf]
  rfl

/-! ## The composition -/

/-- After the whole line the result buffer holds the network of the contents the line was entered with, the
    bias vectors as rows broadcast onto axis 1. -/
theorem result : after ops V (Proc.devRef .tc main_v146)
    = Cert.Spec.network (V (Proc.devRef .tc main_arg0)) (V (Proc.devRef .tc main_arg1)) (V (Proc.devRef .tc main_arg2))
        (broadcastInDim S1x128 ![1] bcast_S128_S1x128_1 (V (Proc.devRef .tc main_arg3)))
        (V (Proc.devRef .tc main_arg4)) (broadcastInDim S1x128 ![1] bcast_S128_S1x128_1 (V (Proc.devRef .tc main_arg5)))
        (V (Proc.devRef .tc main_arg6)) (broadcastInDim S1x128 ![1] bcast_S128_S1x128_1 (V (Proc.devRef .tc main_arg7)))
        (V (Proc.devRef .tc main_arg8)) (broadcastInDim S1x2 ![1] bcast_S2_S1x2_1 (V (Proc.devRef .tc main_arg9))) := by
  rw [after_ops, atE_v146 (atD (atC (atB (atA V)))),
    atD_v141 (atC (atB (atA V))), atD_arg8, atD_arg9,
    atC_v95 (atB (atA V)), atC_v1, atC_v3, atC_arg6, atC_arg7, atC_arg8, atC_arg9,
    atB_v49 (atA V), atB_v1, atB_v3, atB_arg4, atB_arg5, atB_arg6, atB_arg7, atB_arg8, atB_arg9,
    atA_v1, atA_v3, atA_arg0, atA_arg2, atA_arg3, atA_arg4, atA_arg5, atA_arg6, atA_arg7, atA_arg8, atA_arg9]
  rfl

/-- The same, from a launch memory: the buffers' launch contents are the memory's. -/
theorem res_eq (m : (ℓ : Loc nD τ sig) → Buf (Elt Ideal) ℓ) (c : Dev nD) :
    after ops (launchContents m c) (Proc.devRef .tc main_v146)
      = Cert.Spec.network (m ((c.tc : Thread nD τ).loc main_arg0)) (m ((c.tc : Thread nD τ).loc main_arg1))
          (m ((c.tc : Thread nD τ).loc main_arg2)) (broadcastInDim S1x128 ![1] bcast_S128_S1x128_1 (m ((c.tc : Thread nD τ).loc main_arg3)))
          (m ((c.tc : Thread nD τ).loc main_arg4)) (broadcastInDim S1x128 ![1] bcast_S128_S1x128_1 (m ((c.tc : Thread nD τ).loc main_arg5)))
          (m ((c.tc : Thread nD τ).loc main_arg6)) (broadcastInDim S1x128 ![1] bcast_S128_S1x128_1 (m ((c.tc : Thread nD τ).loc main_arg7)))
          (m ((c.tc : Thread nD τ).loc main_arg8)) (broadcastInDim S1x2 ![1] bcast_S2_S1x2_1 (m ((c.tc : Thread nD τ).loc main_arg9))) :=
  result (launchContents m c)

end Cert.ReferenceIdeal.RefValue

end
-- ==== Proof.LibRowForms.lean ====
/-
  A vector laid out as a row in two ways.

  A vector [C] becomes the row [1, C] either by a reshape or by a broadcast onto axis 1: both read, at (0, c),
  the vector at c, so they are the same row.
-/
import proofs.«100644_j4544075399710_1_alg».proof.Proof.LibRows

noncomputable section

namespace Cert.Lib.RowForms

open Idealize.ShloMosaic Idealize.ShloMosaic.ValueIdx

variable {α : Type}

/-- A vector [C] broadcast onto axis 1 of [1, C] is the vector reshaped to [1, C]. -/
theorem broadcastInDim_row_eq_shapeCast {C : Nat} (b : (⟨1, ![C]⟩ : Shape).Idx → α)
    (hb : (⟨1, ![C]⟩ : Shape).BroadcastsInDim ⟨2, ![1, C]⟩ (![1] : Fin 1 → Fin 2))
    (hs : (⟨1, ![C]⟩ : Shape).ShapeCasts ⟨2, ![1, C]⟩) :
    broadcastInDim ⟨2, ![1, C]⟩ (![1] : Fin 1 → Fin 2) hb b = shapeCast ⟨2, ![1, C]⟩ b hs := by
  funext j
  obtain ⟨p, q, rfl⟩ : ∃ (p : Fin 1) (q : Fin C), j = ix2 p q := ⟨j 0, j 1, eq_ix2 j⟩
  obtain rfl : p = 0 := Subsingleton.elim _ _
  rw [Cert.Lib.Rows.shapeCast_vec_row_apply]
  refine broadcastInDim_apply (![1] : Fin 1 → Fin 2) hb b (ix2 0 q) (ix1 q) (fun a => ?_)
  match a with
  | ⟨0, _⟩ =>
    show q.val = if C = 1 then 0 else q.val
    by_cases hC : C = 1
    · rw [if_pos hC]; have := q.isLt; omega
    · rw [if_neg hC]

end Cert.Lib.RowForms

end
-- ==== Proof.lean ====
/-
  The certificate's five claims.

  Both programs compute a three-layer graph convolution followed by a linear classifier and the logarithm of the
  softmax of each row.  The kernel program does the dense steps (the matrix products, the bias with the clamp at
  zero, the classifier) in kernel regions over blocks of 4000 rows and the gathers and scatter-additions on the
  host; the reference does everything on the host.  At the ideal values both results are the same composition of
  whole-array operations of the arguments: a region's blocks tile its output array, a matrix product computed by
  row blocks is the whole product (one and the same sum at each entry), and a bias vector laid out as a row by a
  reshape or by a broadcast is the same row.  No finiteness of the inputs is used.  The ideal pass rewrote nothing,
  so the idealized kernel is the kernel's own text read at the ideal values.
-/
import proofs.«100644_j4544075399710_1_alg».proof.Defs
import proofs.«100644_j4544075399710_1_alg».proof.Proof.Gen.Kernel
import proofs.«100644_j4544075399710_1_alg».proof.Proof.Gen.Kernel.Skeleton
import proofs.«100644_j4544075399710_1_alg».proof.Proof.Gen.Kernel.Launch
import proofs.«100644_j4544075399710_1_alg».proof.Proof.Gen.Kernel.Points
import proofs.«100644_j4544075399710_1_alg».proof.Proof.Gen.Kernel.Frame
import proofs.«100644_j4544075399710_1_alg».proof.Proof.Gen.KernelIdeal
import proofs.«100644_j4544075399710_1_alg».proof.Proof.Gen.KernelIdeal.Skeleton
import proofs.«100644_j4544075399710_1_alg».proof.Proof.Gen.KernelIdeal.Launch
import proofs.«100644_j4544075399710_1_alg».proof.Proof.Gen.KernelIdeal.Points
import proofs.«100644_j4544075399710_1_alg».proof.Proof.Gen.KernelIdeal.Frame
import proofs.«100644_j4544075399710_1_alg».proof.Proof.Gen.ReferenceIdeal
import proofs.«100644_j4544075399710_1_alg».proof.Proof.Gen.Pre_finite_inputs
import proofs.«100644_j4544075399710_1_alg».proof.Proof.KernelRun
import proofs.«100644_j4544075399710_1_alg».proof.Proof.KernelValue
import proofs.«100644_j4544075399710_1_alg».proof.Proof.RefRun
import proofs.«100644_j4544075399710_1_alg».proof.Proof.RefSide
import proofs.«100644_j4544075399710_1_alg».proof.Proof.LibRowForms
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs end with the network of the arguments in
    their result arrays: the kernel's rows of bias are reshapes, the reference's are broadcasts, the same rows. -/
theorem algebraic : Cert.algebraic_KernelIdeal_ReferenceIdeal := by
  intro m ρ m' ρ' _ hagree
  refine ⟨fun c => Cert.KernelIdeal.Gen.W12 m ρ c (Proc.devRef .tc Cert.KernelIdeal.main_v89),
    Cert.KernelIdeal.RunValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9⟩ := hagree c
  rw [Cert.ReferenceIdeal.RefValue.res_eq]
  show _ = Cert.KernelIdeal.Gen.W12 m ρ c (Proc.devRef .tc Cert.KernelIdeal.main_v89)
  rw [Cert.KernelIdeal.KernelValue.result, e0, e1, e2, e3, e4, e5, e6, e7, e8, e9,
    Cert.Lib.RowForms.broadcastInDim_row_eq_shapeCast _ _ Cert.KernelIdeal.Gen.shapeCasts_S128_S1x128,
    Cert.Lib.RowForms.broadcastInDim_row_eq_shapeCast _ _ Cert.KernelIdeal.Gen.shapeCasts_S128_S1x128,
    Cert.Lib.RowForms.broadcastInDim_row_eq_shapeCast _ _ Cert.KernelIdeal.Gen.shapeCasts_S128_S1x128,
    Cert.Lib.RowForms.broadcastInDim_row_eq_shapeCast _ _ Cert.KernelIdeal.Gen.shapeCasts_S2_S1x2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
